-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096 : Shape := ⟨2, ![256, 4096]⟩
abbrev S1x256x4096 : Shape := ⟨3, ![1, 256, 4096]⟩
abbrev S4096x4096 : Shape := ⟨2, ![4096, 4096]⟩
abbrev S4096 : Shape := ⟨1, ![4096]⟩
abbrev S_ : Shape := ⟨0, ![]⟩

class Facts : Prop where
  bcast_S_S256x4096 : S_.BroadcastsInDim S256x4096 (![] : Fin 0 → Fin S256x4096.rank)
  reducesTo_S256x4096_S_d0_1 : S256x4096.ReducesTo [0, 1] S_
  h_S_ : 0 < S_.numel
  bcast_S_S1x256x4096 : S_.BroadcastsInDim S1x256x4096 (![] : Fin 0 → Fin S1x256x4096.rank)
  reducesTo_S1x256x4096_S_d0_1_2 : S1x256x4096.ReducesTo [0, 1, 2] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  main_v38

def fn_part1 {F : FTy → Type} [FloatOps F] (main_arg4 : FVec F S4096x4096 .f32) (main_arg5 : FVec F S4096 .f32) (main_arg6 : FVec F S4096x4096 .f32) (main_arg7 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096x4096 .f32 := Host.absf main_arg6
  let main_cst_10 : FVec F S_ .f32 := constant S_ .f32 0x7F800000#32
  let main_v30 : FVec F S4096x4096 .f32 := broadcastInDim S4096x4096 ![] bcast_S_S4096x4096 main_cst_10
  let main_v31 : IVec S4096x4096 1 := cmpf .olt main_v29 main_v30
  let main_c_11 : IVec S_ 1 := constantI S_ 1 1#1
  let main_v32 : IVec S_ 1 := (fun x v => Host.reduce IntOp.andi x v reducesTo_S4096x4096_S_d0_1 h_S_) main_v31 main_c_11
  let main_v33 : IVec S_ 1 := andi main_v28 main_v32
  fn_part2 (F := F) main_arg7 main_v33

def fn {F : FTy → Type} [FloatOps F] (main_arg0 : FVec F S256x4096 .f32) (main_arg1 : FVec F S1x256x4096 .f32) (main_arg2 : FVec F S4096x4096 .f32) (main_arg3 : FVec F S4096 .f32) (main_arg4 : FVec F S4096x4096 .f32) (main_arg5 : FVec F S4096 .f32) (main_arg6 : FVec F S4096x4096 .f32) (main_arg7 : FVec F S4096 .f32) : IVec S_ 1 :=
  let main_v0 : FVec F S256x4096 .f32 := Host.absf main_arg0
  let main_cst : FVec F S_ .f32 := constant S_ .f32 0x7F800000#32
  let main_v1 : FVec F S256x4096 .f32 := broadcastInDim S256x4096 ![] bcast_S_S256x4096 main_cst
  let main_v2 : IVec S256x4096 1 := cmpf .olt main_v0 main_v1
  let main_c : IVec S_ 1 := constantI S_ 1 1#1
  let main_v3 : IVec S_ 1 := (fun x v => Host.reduce IntOp.andi x v reducesTo_S256x4096_S_d0_1 h_S_) main_v2 main_c
  let main_v4 : FVec F S1x256x4096 .f32 := Host.absf main_arg1
  let main_cst_0 : FVec F S_ .f32 := constant S_ .f32 0x7F800000#32
  let main_v5 : FVec F S1x256x4096 .f32 := broadcastInDim S1x256x4096 ![] bcast_S_S1x256x4096 main_cst_0
  let main_v6 : IVec S1x256x4096 1 := cmpf .olt main_v4 main_v5
  let main_c_1 : IVec S_ 1 := constantI S_ 1 1#1
  let main_v7 : IVec S_ 1 := (fun x v => Host.reduce IntOp.andi x v reducesTo_S1x256x4096_S_d0_1_2 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_v13 main_v16
-- ==== Kernel.lean ====
abbrev S256x4096 : Shape := ⟨2, ![256, 4096]⟩
abbrev S1x256x4096 : Shape := ⟨3, ![1, 256, 4096]⟩
abbrev S4096x4096 : Shape := ⟨2, ![4096, 4096]⟩
abbrev S4096 : Shape := ⟨1, ![4096]⟩
abbrev S256 : Shape := ⟨1, ![256]⟩
abbrev S256x256 : Shape := ⟨2, ![256, 256]⟩
abbrev S1x256 : Shape := ⟨2, ![1, 256]⟩
abbrev S128x4096 : Shape := ⟨2, ![128, 4096]⟩
abbrev S512x4096 : Shape := ⟨2, ![512, 4096]⟩
abbrev S512 : Shape := ⟨1, ![512]⟩
abbrev S128x512 : Shape := ⟨2, ![128, 512]⟩
abbrev S1x512 : Shape := ⟨2, ![1, 512]⟩
abbrev S128 : Shape := ⟨1, ![128]⟩
abbrev S128x1 : Shape := ⟨2, ![128, 1]⟩

abbrev nBuf : Space → Nat
  | .hbm => 14
  | .vmem => 19
  | .smem => 0
  | _ => 0

abbrev bufTy : (tb : Table) → Fin (tcTables nBuf tb) → BufTy
  | .hbm, ⟨0, _⟩ => ⟨S256x4096, .f32⟩
  | .hbm, ⟨1, _⟩ => ⟨S1x256x4096, .f32⟩
  | .hbm, ⟨2, _⟩ => ⟨S4096x4096, .f32⟩
  | .hbm, ⟨3, _⟩ => ⟨S4096, .f32⟩
  | .hbm, ⟨4, _⟩ => ⟨S4096x4096, .f32⟩
  | .hbm, ⟨5, _⟩ => ⟨S4096, .f32⟩
  | .hbm, ⟨6, _⟩ => ⟨S4096x4096, .f32⟩
  | .hbm, ⟨7, _⟩ => ⟨S4096, .f32⟩
  | .hbm, ⟨8, _⟩ => ⟨S256x4096, .f32⟩
  | .hbm, ⟨9, _⟩ => ⟨S4096, .f32⟩
  | .hbm, ⟨10, _⟩ => ⟨S256x4096, .f32⟩
  | .hbm, ⟨11, _⟩ => ⟨S256x4096, .f32⟩
  | .hbm, ⟨12, _⟩ => ⟨S1x256x4096, .f32⟩
  | .hbm, ⟨13, _⟩ => ⟨S1x256x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256, .f32⟩
  | .local _ .vmem, ⟨7, _⟩ => ⟨S256, .f32⟩
  | .local _ .vmem, ⟨8, _⟩ => ⟨S256x256, .f32⟩
  | .local _ .vmem, ⟨9, _⟩ => ⟨S256x256, .f32⟩
  | .local _ .vmem, ⟨10, _⟩ => ⟨S128x4096, .f32⟩
  | .local _ .vmem, ⟨11, _⟩ => ⟨S128x4096, .f32⟩
  | .local _ .vmem, ⟨12, _⟩ => ⟨S512x4096, .f32⟩
  | .local _ .vmem, ⟨13, _⟩ => ⟨S512x4096, .f32⟩
  | .local _ .vmem, ⟨14, _⟩ => ⟨S512, .f32⟩
  | .local _ .vmem, ⟨15, _⟩ => ⟨S512, .f32⟩
  | .local _ .vmem, ⟨16, _⟩ => ⟨S128x4096, .f32⟩
  | .local _ .vmem, ⟨17, _⟩ => ⟨S128x4096, .f32⟩
  | .local _ .vmem, ⟨18, _⟩ => ⟨S128x4096, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 8], ![false, false]⟩

def k1_mult1 (i : grid1.Coords) : BitVec 32 :=
  let arg1 : BitVec 32 := BitVec.ofNat 32 (i 1).val
  let c512_i32 : BitVec 32 := 512#32
  let v10 : BitVec 32 := Scalar.muli arg1 c512_i32
  v10
def k1_off1 (i : grid1.Coords) : Fin 2 → Nat :=
  let c0_4 : Index := 0#32
  let arg1 : BitVec 32 := BitVec.ofNat 32 (i 1).val
  let c512_i32 : BitVec 32 := 512#32
  let v10 : BitVec 32 := Scalar.muli arg1 c512_i32
  let v11 : BitVec 32 := v10
  let v12 : Index := Scalar.indexCast v11
  ![0, v12.toNat]
def k1_cond1 (i : grid1.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32 : BitVec 32 := 0#32
  let v18 : BitVec 1 := Scalar.cmpi .ne v17 c0_i32
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S128x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S1x256x4096_S256x4096 : S1x256x4096.ShapeCasts S256x4096
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  shapeCasts_S256x4096_S256x4096 : S256x4096.ShapeCasts S256x4096
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S512x4096_S512x4096_0_0 : ∀ a, (![0, 0] : Fin 2 → Nat) a + S512x4096.size a ≤ S512x4096.size a
  h_S512x4096 : 0 < S512x4096.numel
  inb_S512_S512_0 : ∀ a, (![0] : Fin 1 → Nat) a + S512.size a ≤ S512.size a
  h_S512 : 0 < S512.numel
  shapeCasts_S512_S1x512 : S512.ShapeCasts S1x512
  broadcasts_S1x512_S128x512 : S1x512.Broadcasts S128x512
  h_S128x512 : 0 < S128x512.numel
  shapeCasts_S128x512_S128x512 : S128x512.ShapeCasts S128x512
  reduces_S128x4096_S128 : S128x4096.Reduces [1] S128
  shapeCasts_S128_S128x1 : S128.ShapeCasts S128x1
  broadcasts_S128x1_S128x4096 : S128x1.Broadcasts S128x4096
  bcast_S256x4096_S1x256x4096_1_2 : S256x4096.BroadcastsInDim S1x256x4096 (![1, 2] : Fin 2 → Fin S1x256x4096.rank)
  dot_S256x4096_S256x4096_S256x256_1_1_0_0_n_n_wf : DotDims.WF S256x4096 S256x4096 S256x256 [1] [1] [0] [0] [] []
  dot_S128x4096_S512x4096_S128x512_1_1_0_0_n_n_wf : DotDims.WF S128x4096 S512x4096 S128x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S256x4096.size a
  hwx0_0 : ∀ i : grid0.Coords, EltTy.bits .f32 = 32 ∨ (Rect.block (s := S256x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S256x4096.size a
  hwx0_1 : ∀ i : grid0.Coords, EltTy.bits .f32 = 32 ∨ (Rect.block (s := S256x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .f32 = 32 ∨ (Rect.block (s := S4096x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .f32 = 32 ∨ (Rect.block (s := S4096x4096) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S4096.size a
  hwx0_4 : ∀ i : grid0.Coords, EltTy.bits .f32 = 32 ∨ (Rect.block (s := S4096) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x4096.size a
  hwx0_5 : ∀ i : grid0.Coords, EltTy.bits .f32 = 32 ∨ (Rect.block (s := S256x4096) S256x256.size (cc0_transform_5 i) (hinb0_5 i)).WholeWords (EltTy.packing .f32)
  hrank1 : 0 < grid1.rank
  k1_mult1_dvd : ∀ i : grid1.Coords, 512 ∣ (k1_mult1 i).toNat
  k1_off1_inb : ∀ i : grid1.Coords, ∀ a, (k1_off1 i) a + S128x512.size a ≤ S128x4096.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S256x4096.size a
  hwx1_0 : ∀ i : grid1.Coords, EltTy.bits .f32 = 32 ∨ (Rect.block (s := S256x4096) S128x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .f32 = 32 ∨ (Rect.block (s := S4096x4096) S512x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S4096.size a
  hwx1_2 : ∀ i : grid1.Coords, EltTy.bits .f32 = 32 ∨ (Rect.block (s := S4096) S512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x4096.size a ≤ S256x4096.size a
  hwx1_3 : ∀ i : grid1.Coords, EltTy.bits .f32 = 32 ∨ (Rect.block (s := S256x4096) S128x4096.size (cc1_transform_3 i) (hinb1_3 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf
def dot_S128x4096_S512x4096_S128x512_1_1_0_0_n_n : DotDims S128x4096 S512x4096 S128x512 where
  lhsContracting := [1]
  rhsContracting := [1]
  lhsNonContracting := [0]
  rhsNonContracting := [0]
  lhsBatch := []
  rhsBatch := []
  wf := dot_S128x4096_S512x4096_S128x512_1_1_0_0_n_n_wf

abbrev win0_0 : Pipeline.Window sig grid0 :=
  Pipeline.Window.ofSpec (Memref.whole main_arg0) S256x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v2) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S128x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond1 i == 1#1) | ⟨_ + 4, h⟩ => absurd h (Nat.not_lt.2 (Nat.le_add_left _ _))

class Facts : Prop extends Facts₀ where

variable [Facts]
-- ==== ReferenceIdeal.lean ====
abbrev S256x4096 : Shape := ⟨2, ![256, 4096]⟩
abbrev S1x256x4096 : Shape := ⟨3, ![1, 256, 4096]⟩
abbrev S4096x4096 : Shape := ⟨2, ![4096, 4096]⟩
abbrev S4096 : Shape := ⟨1, ![4096]⟩
abbrev S1x4096 : Shape := ⟨2, ![1, 4096]⟩
abbrev S_ : Shape := ⟨0, ![]⟩
abbrev S256 : Shape := ⟨1, ![256]⟩
abbrev S256x1 : Shape := ⟨2, ![256, 1]⟩

abbrev nBuf : Space → Nat
  | .hbm => 42
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S1x256x4096, .f32⟩
  | .hbm, ⟨2, _⟩ => ⟨S4096x4096, .f32⟩
  | .hbm, ⟨3, _⟩ => ⟨S4096, .f32⟩
  | .hbm, ⟨4, _⟩ => ⟨S4096x4096, .f32⟩
  | .hbm, ⟨5, _⟩ => ⟨S4096, .f32⟩
  | .hbm, ⟨6, _⟩ => ⟨S4096x4096, .f32⟩
  | .hbm, ⟨7, _⟩ => ⟨S4096, .f32⟩
  | .hbm, ⟨8, _⟩ => ⟨S256x4096, .f32⟩
  | .hbm, ⟨9, _⟩ => ⟨S4096x4096, .f32⟩
  | .hbm, ⟨10, _⟩ => ⟨S256x4096, .f32⟩
  | .hbm, ⟨11, _⟩ => ⟨S1x4096, .f32⟩
  | .hbm, ⟨12, _⟩ => ⟨S256x4096, .f32⟩
  | .hbm, ⟨13, _⟩ => ⟨S256x4096, .f32⟩
  | .hbm, ⟨14, _⟩ => ⟨S4096x4096, .f32⟩
  | .hbm, ⟨15, _⟩ => ⟨S256x4096, .f32⟩
  | .hbm, ⟨16, _⟩ => ⟨S256x4096, .f32⟩
  | .hbm, ⟨17, _⟩ => ⟨S1x4096, .f32⟩
  | .hbm, ⟨18, _⟩ => ⟨S256x4096, .f32⟩
  | .hbm, ⟨19, _⟩ => ⟨S256x4096, .f32⟩
  | .hbm, ⟨20, _⟩ => ⟨S256x4096, .f32⟩
  | .hbm, ⟨21, _⟩ => ⟨S4096x4096, .f32⟩
  | .hbm, ⟨22, _⟩ => ⟨S256x4096, .f32⟩
  | .hbm, ⟨23, _⟩ => ⟨S1x4096, .f32⟩
  | .hbm, ⟨24, _⟩ => ⟨S256x4096, .f32⟩
  | .hbm, ⟨25, _⟩ => ⟨S256x4096, .f32⟩
  | .hbm, ⟨26, _⟩ => ⟨S_, .f32⟩
  | .hbm, ⟨27, _⟩ => ⟨S256, .f32⟩
  | .hbm, ⟨28, _⟩ => ⟨S_, .f32⟩
  | .hbm, ⟨29, _⟩ => ⟨S256, .f32⟩
  | .hbm, ⟨30, _⟩ => ⟨S256, .f32⟩
  | .hbm, ⟨31, _⟩ => ⟨S256x1, .f32⟩
  | .hbm, ⟨32, _⟩ => ⟨S256x4096, .f32⟩
  | .hbm, ⟨33, _⟩ => ⟨S256x4096, .f32⟩
  | .hbm, ⟨34, _⟩ => ⟨S256x4096, .f32⟩
  | .hbm, ⟨35, _⟩ => ⟨S_, .f32⟩
  | .hbm, ⟨36, _⟩ => ⟨S256, .f32⟩
  | .hbm, ⟨37, _⟩ => ⟨S256x1, .f32⟩
  | .hbm, ⟨38, _⟩ => ⟨S256x4096, .f32⟩
  | .hbm, ⟨39, _⟩ => ⟨S256x4096, .f32⟩
  | .hbm, ⟨40, _⟩ => ⟨S1x256x4096, .f32⟩
  | .hbm, ⟨41, _⟩ => ⟨S1x256x4096, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  shapeCasts_S1x256x4096_S256x4096 : S1x256x4096.ShapeCasts S256x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S256x4096_0_1 : S1x4096.BroadcastsInDim S256x4096 (![0, 1] : Fin 2 → Fin S256x4096.rank)
  reducesTo_S256x4096_S256_d1 : S256x4096.ReducesTo [1] S256
  h_S_ : 0 < S_.numel
  bcast_S_S256 : S_.BroadcastsInDim S256 (![] : Fin 0 → Fin S256.rank)
  bcast_S256_S256x1_0 : S256.BroadcastsInDim S256x1 (![0] : Fin 1 → Fin S256x1.rank)
  bcast_S256x1_S256x4096_0_1 : S256x1.BroadcastsInDim S256x4096 (![0, 1] : Fin 2 → Fin S256x4096.rank)
  bcast_S256x4096_S1x256x4096_1_2 : S256x4096.BroadcastsInDim S1x256x4096 (![1, 2] : Fin 2 → Fin S1x256x4096.rank)
  dot_S256x4096_S4096x4096_S256x4096_1_0_0_1_n_n_wf : DotDims.WF S256x4096 S4096x4096 S256x4096 [1] [0] [0] [1] [] []

variable [Facts₀]

def dot_S256x4096_S4096x4096_S256x4096_1_0_0_1_n_n : DotDims S256x4096 S4096x4096 S256x4096 where
  lhsContracting := [1]
  rhsContracting := [0]
  lhsNonContracting := [0]
  rhsNonContracting := [1]
  lhsBatch := []
  rhsBatch := []
  wf := dot_S256x4096_S4096x4096_S256x4096_1_0_0_1_n_n_wf

class Facts : Prop extends Facts₀ where

variable [Facts]
-- ==== Proof.BRegion0.lean ====
/-
  The first kernel region (the recurrent cell), as the pipeline runs it: at grid point n the body reads the whole of x and of h,
  the n-th slab of 256 rows of each weight matrix and the n-th 256 entries of the summed bias, and stores one
  [256, 256] block: columns 256·n … 256·n+255 of the new hidden state. Here: each window's block at a point read off
  the arrays as the region finds them, what the body leaves in the output's buffer as a function of the input
  blocks, the body's triple, and the pipeline's body obligation at every point, at any float instance.
-/
import proofs.«111199_j25512105738297_2_alg».proof.Proof.Gen.Kernel.Launch
import proofs.«111199_j25512105738297_2_alg».proof.Proof.Gen.Kernel.Skeleton
import proofs.«111199_j25512105738297_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not (a block fetched
    once stays: its index does not move). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev rIn0 : Rect S256x4096 := Rect.unit (s := S256x4096) ![0, 0] S256x4096.size inb_S256x4096_S256x4096_0_0
abbrev rBias0 : Rect S256 := Rect.unit (s := S256) ![0] S256.size inb_S256_S256_0
abbrev rOut0 : Rect S256x256 := Rect.unit (s := S256x256) ![0, 0] S256x256.size inb_S256x256_S256x256_0_0

/-- The output block after the body, from the five input blocks: its one store. -/
def out0_5 (x0 x1 x2 x3 : Vec F S256x4096 .f32) (x4 : Vec F S256 .f32) : Vec F S256x256 .f32 :=
  View.canon [⟨rOut0, k0_pay1 (View.ld x0 rIn0) (View.ld x1 rIn0) (View.ld x2 rIn0) (View.ld x3 rIn0) (View.ld x4 rBias0)⟩]

/-- The store covers the block. -/
theorem cover0_5 (p0 : Vec F S256x256 .f32) (y : S256x256.Idx) :
    ∃ pc ∈ ([⟨rOut0, p0⟩] : List (View.Piece (Elt F) S256x256 .f32)), y ∈ pc.1.set :=
  View.cover_of_tiled [⟨rOut0, p0⟩] S256x256.size (by rfl) y

/-! ## The body's triple -/

set_option maxHeartbeats 2000000 in
/-- On whole staging buffers, the inputs' at known contents and the output's at anything, the body runs to its end,
    hands the inputs back as they were and leaves the output at `out0_5` of them. -/
theorem sound_kernel0 (c : Dev nD) (E : Set ℕ) (i : grid0.Coords) (arg1 : Memref sig .tc .vmem S256x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256 .f32) (harg5 : arg5.IsWhole) (arg6 : Memref sig .tc .vmem S256x256 .f32) (harg6 : arg6.IsWhole)
    (x0 x1 x2 x3 : Vec F S256x4096 .f32) (x4 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__rnn_kernel i arg1 harg1 arg2 harg2 arg3 harg3 arg4 harg4 arg5 harg5 arg6 harg6) K := by
  simp only [cc0__rnn_kernel_eq_skeleton]; unfold cc0__rnn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The arrays as the region finds them; after the body at point `t` each input's buffer at its block and the
    output's at `out0_5` of the input blocks; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BRegion1.lean ====
/-
  The second kernel region (the linear layer and the row softmax), as the pipeline runs it on its 2 × 8 grid: at point
  (m, o) the body reads row block m of the hidden state ([128, 4096]), slab o of 512 rows of the weight matrix and of 512
  bias entries, and stores their product plus bias — 512 columns of logits — into columns 512·o … of a [128, 4096] scratch
  it keeps between points; at o = 7 the scratch holds the whole row block's logits and the body stores their row softmax
  into the output block. Here: the scratch after a store as a pure function, the body's triple in its two cases, the
  invariant (before position n the columns below 512·(n mod 8) hold this row block's logits), the proof data and the
  pipeline's body obligation at every point, at any float instance.
-/
import proofs.«111199_j25512105738297_2_alg».proof.Proof.Gen.Kernel.Launch
import proofs.«111199_j25512105738297_2_alg».proof.Proof.Gen.Kernel.Skeleton
import proofs.«111199_j25512105738297_2_alg».proof.Proof.Gen.Kernel.Points
import Idealize.ShloMosaic.Lib.WritesUnit
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The grid: the body's condition, where the output is idle, the coordinates -/

/-- The body finishes a row block exactly at the points with o = 7. -/
theorem hcond1 : ∀ t : Fin cfg1.N, k1_cond1 (grid1.coords t) = 1#1 ↔ t.val % 8 = 7 :=
  (by decide +kernel : ∀ t : Fin grid1.N, k1_cond1 (grid1.coords t) = 1#1 ↔ t.val % 8 = 7)
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem idle1_3 : ∀ t : Fin cfg1.N, ¬ t.val % 8 = 7 → cfg1.idle 3 (grid1.coords t) = true := by decide +kernel
theorem noFlush1_3 : ∀ t : Fin cfg1.N, ¬ t.val % 8 = 7 → (cfg1.win 3).flush t = false := by decide +kernel
theorem live1_3 : ∀ t : Fin cfg1.N, t.val % 8 = 7 → cfg1.idle 3 (grid1.coords t) = false := by decide +kernel
/-- Point t is (t / 8, t mod 8). -/
theorem coord1_o : ∀ t : Fin cfg1.N, ((grid1.coords t) 1).val = t.val % 8 := by decide +kernel
theorem coord1_m : ∀ t : Fin cfg1.N, ((grid1.coords t) 0).val = t.val / 8 := by decide +kernel

/-! ## The body's accesses and pure values -/

abbrev rH1 : Rect S128x4096 := Rect.unit (s := S128x4096) ![0, 0] S128x4096.size inb_S128x4096_S128x4096_0_0
abbrev rW1 : Rect S512x4096 := Rect.unit (s := S512x4096) ![0, 0] S512x4096.size inb_S512x4096_S512x4096_0_0
abbrev rB1 : Rect S512 := Rect.unit (s := S512) ![0] S512.size inb_S512_S512_0

/-- The 512 columns of logits a point computes, from its three input blocks. -/
def slab1 (x0 : Vec F S128x4096 .f32) (x1 : Vec F S512x4096 .f32) (x2 : Vec F S512 .f32) : Vec F S128x512 .f32 :=
  k1_pay1 (View.ld x0 rH1) (View.ld x1 rW1) (View.ld x2 rB1)

/-- The scratch after a store of `p` at columns 512·o …: `p` there, the old contents elsewhere. -/
def scratchNext (o : ℕ) (p : Vec F S128x512 .f32) (xs : Vec F S128x4096 .f32) : Vec F S128x4096 .f32 :=
  fun y => if h : ∀ a, (![0, 512 * o] : Fin 2 → ℕ) a ≤ (y a).val ∧ (y a).val < (![0, 512 * o] : Fin 2 → ℕ) a + S128x512.size a then
    p (Rect.unitLocal (s := S128x4096) (off := ![0, 512 * o]) (size := S128x512.size) y h) else xs y

/-- The output block the finishing case stores, from the scratch it reads back. -/
def out1_3 (z : Vec F S128x4096 .f32) : Vec F S128x4096 .f32 :=
  View.canon [⟨rH1, k1_pay2 (View.ld z rH1)⟩]

theorem cover1_3 (p0 : Vec F S128x4096 .f32) (y : S128x4096.Idx) :
    ∃ pc ∈ ([⟨rH1, p0⟩] : List (View.Piece (Elt F) S128x4096 .f32)), y ∈ pc.1.set :=
  View.cover_of_tiled [⟨rH1, p0⟩] S128x4096.size (by rfl) y

/-- A store of one slab into the scratch, read back. -/
theorem read_store1 (arg6 : Memref sig .tc .vmem S128x4096 .f32) (f6 : arg6.view.ty.Contents (Elt F)) (i : grid1.Coords) (p : Vec F S128x512 .f32) :
    arg6.view.read (Elt F) (arg6.view.writes (Elt F) f6 [⟨Rect.unit (s := S128x4096) (k1_off1 i) S128x512.size (k1_off1_inb i), p⟩])
      = scratchNext (i 1).val p (arg6.view.read (Elt F) f6) := by
  funext y
  rw [View.read_writes_cons_unit arg6.view f6 (k1_off1_inb i) p [] y (k1_off1_eq i)]
  unfold scratchNext
  split <;> rfl

/-! ## The body's triple, in its two cases -/

set_option maxHeartbeats 2000000 in
/-- Away from the end of a row block: the slab goes into the scratch, the output's buffer is not touched. -/
theorem sound_kernel1_idle (c : Dev nD) (E : Set ℕ) (i : grid1.Coords) (hc : ¬ k1_cond1 i = 1#1) (arg2 : Memref sig .tc .vmem S128x4096 .f32) (harg2 : arg2.IsWhole) (arg3 : Memref sig .tc .vmem S512x4096 .f32) (harg3 : arg3.IsWhole) (arg4 : Memref sig .tc .vmem S512 .f32) (harg4 : arg4.IsWhole) (arg5 : Memref sig .tc .vmem S128x4096 .f32) (harg5 : arg5.IsWhole) (arg6 : Memref sig .tc .vmem S128x4096 .f32) (harg6 : arg6.IsWhole)
    (x0 : Vec F S128x4096 .f32) (x1 : Vec F S512x4096 .f32) (x2 : Vec F S512 .f32) (d5 xs : Vec F S128x4096 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare d5 ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare d5
            ∗ owns (c : Thread nD τ) arg6 fullShare (scratchNext (i 1).val (slab1 x0 x1 x2) xs)) -∗ K ⟨⟩))
      ⊢ wp frame (wpE (defs₀ (F := F)) Variants.none c none) E (cc1__lin_softmax_kernel i arg2 harg2 arg3 harg3 arg4 harg4 arg5 harg5 arg6 harg6) K := by
  simp only [cc1__lin_softmax_kernel_eq_skeleton]; unfold cc1__lin_softmax_kernel_skel
  unfold owns
  iintro ⟨⟨%f0, %hf0, H0⟩, ⟨%f1, %hf1, H1⟩, ⟨%f2, %hf2, H2⟩, ⟨%f5, %hf5, H5⟩, ⟨%f6, %hf6, H6⟩, Hk⟩
  subst hf0 hf1 hf2 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists f5; isplitr; · ipureintro; rfl
    iexact H5
  iexists _; isplitr
  swap; · iexact H6
  ipureintro
  exact read_store1 arg6 f6 i _

set_option maxHeartbeats 2000000 in
/-- At the end of a row block: the slab goes into the scratch, and the output's buffer gets the softmax of the scratch. -/
theorem sound_kernel1_fin (c : Dev nD) (E : Set ℕ) (i : grid1.Coords) (hc : k1_cond1 i = 1#1) (arg2 : Memref sig .tc .vmem S128x4096 .f32) (harg2 : arg2.IsWhole) (arg3 : Memref sig .tc .vmem S512x4096 .f32) (harg3 : arg3.IsWhole) (arg4 : Memref sig .tc .vmem S512 .f32) (harg4 : arg4.IsWhole) (arg5 : Memref sig .tc .vmem S128x4096 .f32) (harg5 : arg5.IsWhole) (arg6 : Memref sig .tc .vmem S128x4096 .f32) (harg6 : arg6.IsWhole)
    (x0 : Vec F S128x4096 .f32) (x1 : Vec F S512x4096 .f32) (x2 : Vec F S512 .f32) (xs : Vec F S128x4096 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (out1_3 (scratchNext (i 1).val (slab1 x0 x1 x2) xs))
            ∗ owns (c : Thread nD τ) arg6 fullShare (scratchNext (i 1).val (slab1 x0 x1 x2) xs)) -∗ K ⟨⟩))
      ⊢ wp frame (wpE (defs₀ (F := F)) Variants.none c none) E (cc1__lin_softmax_kernel i arg2 harg2 arg3 harg3 arg4 harg4 arg5 harg5 arg6 harg6) K := by
  simp only [cc1__lin_softmax_kernel_eq_skeleton]; unfold cc1__lin_softmax_kernel_skel
  unfold owns
  iintro ⟨⟨%f0, %hf0, H0⟩, ⟨%f1, %hf1, H1⟩, ⟨%f2, %hf2, H2⟩, ⟨%d5, %f5, -, H5⟩, ⟨%f6, %hf6, H6⟩, Hk⟩
  subst hf0 hf1 hf2 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_run_names
    refine (View.read_writes_eq_canon _ _ _ (cover1_3 _)).trans ?_
    unfold out1_3
    rw [View.readAt_eq_ld, read_store1]
    rfl
  iexists _; isplitr
  swap; · iexact H6
  ipureintro
  sl_unfold_run_names
  exact read_store1 arg6 f6 i _

/-! ## What the scratch holds between points -/

/-- The 512 columns of logits point `s` computes, from the arrays as the region finds them. -/
def slabAt (c : Dev nD) (s : Fin cfg1.N) : Vec F S128x512 .f32 :=
  slab1 (iblk1 V c 0 s) (iblk1 V c 1 s) (iblk1 V c 2 s)

/-- A point by its number. -/
def pt1 (n : ℕ) (h : n < 16) : Fin cfg1.N := ⟨n, lt_of_lt_of_eq h N_1.symm⟩

/-- Row block `mb`'s logits, [128, 4096]: column q comes from the slab of point 8·mb + q / 512, at column q mod 512. -/
def logitsBlk (c : Dev nD) (mb : ℕ) : Vec F S128x4096 .f32 := fun y =>
  slabAt V c (pt1 (8 * (mb % 2) + (y 1).val / 512) (by have := ValueIdx.idx2_lt1 y; omega))
    (ValueIdx.ix2 (n0 := 128) (n1 := 512) (y 0) ⟨(y 1).val % 512, Nat.mod_lt _ (by decide)⟩)

theorem logitsBlk_apply (c : Dev nD) (mb : ℕ) (y : S128x4096.Idx) (s : Fin cfg1.N) (x : S128x512.Idx)
    (hs : s.val = 8 * (mb % 2) + (y 1).val / 512) (hx0 : (x 0).val = (y 0).val) (hx1 : (x 1).val = (y 1).val % 512) :
    logitsBlk V c mb y = slabAt V c s x := by
  unfold logitsBlk
  exact congr (congrArg (slabAt V c) (Fin.ext hs.symm))
    (funext fun a => Fin.ext (by match a with | ⟨0, _⟩ => exact hx0.symm | ⟨1, _⟩ => exact hx1.symm))

theorem scratchNext_in (o : ℕ) (p : Vec F S128x512 .f32) (xs : Vec F S128x4096 .f32) (y : S128x4096.Idx)
    (h1 : 512 * o ≤ (y 1).val) (h2 : (y 1).val < 512 * o + 512) (x : S128x512.Idx) (hx0 : (x 0).val = (y 0).val)
    (hx1 : (x 1).val + 512 * o = (y 1).val) : scratchNext o p xs y = p x := by
  have hmem : ∀ a, (![0, 512 * o] : Fin 2 → ℕ) a ≤ (y a).val ∧ (y a).val < (![0, 512 * o] : Fin 2 → ℕ) a + S128x512.size a :=
    Fin.forall_fin_two.mpr ⟨⟨Nat.zero_le _, by have := ValueIdx.idx2_lt0 y; show (y 0).val < 0 + 128; omega⟩,
      ⟨h1, h2⟩⟩
  unfold scratchNext
  rw [dif_pos hmem]
  exact congrArg p (funext fun a => Fin.ext (by
    match a with
    | ⟨0, _⟩ => show (y 0).val - 0 = (x 0).val; omega
    | ⟨1, _⟩ => show (y 1).val - 512 * o = (x 1).val; omega))

theorem scratchNext_out (o : ℕ) (p : Vec F S128x512 .f32) (xs : Vec F S128x4096 .f32) (y : S128x4096.Idx)
    (h : (y 1).val < 512 * o ∨ 512 * o + 512 ≤ (y 1).val) : scratchNext o p xs y = xs y := by
  unfold scratchNext
  rw [dif_neg]
  intro hmem
  have h1 : 512 * o ≤ (y 1).val ∧ (y 1).val < 512 * o + 512 := hmem 1
  omega

/-- Before position `n` the columns below 512·(n mod 8) hold the logits of the row block in progress. -/
def SInv (c : Dev nD) (n : ℕ) (xs : Vec F S128x4096 .f32) : Prop :=
  ∀ y : S128x4096.Idx, (y 1).val < 512 * (n % 8) → xs y = logitsBlk V c (n / 8) y

/-- A point that is not the last of its row block adds its 512 columns. -/
theorem SInv_step (c : Dev nD) (t : Fin cfg1.N) (xs : Vec F S128x4096 .f32) (h : SInv V c t.val xs) (h7 : ¬ t.val % 8 = 7) :
    SInv V c (t.val + 1) (scratchNext (t.val % 8) (slabAt V c t) xs) := by
  have ht : t.val < 16 := lt_of_lt_of_eq t.isLt N_1
  intro y hy
  have e1 : (t.val + 1) % 8 = t.val % 8 + 1 := by omega
  have e2 : (t.val + 1) / 8 = t.val / 8 := by omega
  rw [e1] at hy
  rw [e2]
  by_cases hlo : (y 1).val < 512 * (t.val % 8)
  · rw [scratchNext_out _ _ _ _ (Or.inl hlo)]
    exact h y hlo
  · have hq : (y 1).val % 512 + 512 * (t.val % 8) = (y 1).val := by omega
    rw [scratchNext_in (t.val % 8) _ xs y (by omega) (by omega)
      (ValueIdx.ix2 (n0 := 128) (n1 := 512) (y 0) ⟨(y 1).val % 512, Nat.mod_lt _ (by decide)⟩) rfl hq]
    exact (logitsBlk_apply V c (t.val / 8) y t _ (by omega) rfl rfl).symm

/-- The last point of a row block completes it: the scratch is the row block's logits. -/
theorem SInv_fin (c : Dev nD) (t : Fin cfg1.N) (xs : Vec F S128x4096 .f32) (h : SInv V c t.val xs) (h7 : t.val % 8 = 7) :
    scratchNext (t.val % 8) (slabAt V c t) xs = logitsBlk V c (t.val / 8) := by
  have ht : t.val < 16 := lt_of_lt_of_eq t.isLt N_1
  funext y
  have hy1 := ValueIdx.idx2_lt1 y
  by_cases hlo : (y 1).val < 512 * (t.val % 8)
  · rw [scratchNext_out _ _ _ _ (Or.inl hlo)]
    exact h y hlo
  · have hq : (y 1).val % 512 + 512 * (t.val % 8) = (y 1).val := by omega
    rw [scratchNext_in (t.val % 8) _ xs y (by omega) (by omega)
      (ValueIdx.ix2 (n0 := 128) (n1 := 512) (y 0) ⟨(y 1).val % 512, Nat.mod_lt _ (by decide)⟩) rfl hq]
    exact (logitsBlk_apply V c (t.val / 8) y t _ (by omega) rfl rfl).symm

/-- After the last point of a row block nothing is claimed of the scratch. -/
theorem SInv_vac (c : Dev nD) (n : ℕ) (xs : Vec F S128x4096 .f32) (h0 : n % 8 = 0) : SInv V c n xs := by
  intro y hy; rw [h0] at hy; omega

/-! ## The invariant and the proof data -/

/-- The scratch operand: a whole scoped buffer of the kernel's own. -/
abbrev scM1 : Memref sig .tc .vmem S128x4096 .f32 := Memref.whole cc1_scratch0

/-- The core's other scoped buffers that the pipeline does not stage, at some contents. -/
def Rest1 (c : Dev nD) : sProp 𝕄 :=
  Pipeline.scopedRestBut (Ix := Unit) (Name := ℕ) (U := UR sig nD τ) (Lvl := ℕ) (Val := Elt F) spec1 c [cc1_scratch0]

/-- The region's invariant before position `n`: the scratch at contents satisfying `SInv`, the other scoped buffers and the
    generator register at something. -/
def PhiS1 (c : Dev nD) (n : ℕ) : sProp 𝕄 :=
  iprop((∃ xs, owns (c : Thread nD τ) scM1 fullShare xs ∗ ⌜SInv V c n xs⌝) ∗ Rest1 c ∗ (∃ r, prngReg c r))

/-- The arrays as the region finds them; after the body each input's buffer at its block; the output's, where the body
    stores it, at the softmax of the row block's logits; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (logitsBlk V c (t.val / 8))
  Φ t := PhiS1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (logitsBlk V c (t.val / 8)) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 2000000 in
/-- The body at any point: the inputs' buffers hold their blocks; the invariant hands over the scratch and takes it back
    with the point's columns added; at the last point of a row block the output's buffer gets the softmax of the completed
    logits, elsewhere it is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = PhiS1 V c (t.val + 1) from rfl,
    show (dat1 V c).Φ t.castSucc = PhiS1 V c t.val from rfl]
  rw [show (dat1 V c).leavesExact 0 t = owns (c : Thread nD τ) (st1_0 t) fullShare ((dat1 V c).after 0 t) from by
      unfold Dat.leavesExact; rw [live1_0 t], after1_0,
    show (dat1 V c).leavesExact 1 t = owns (c : Thread nD τ) (st1_1 t) fullShare ((dat1 V c).after 1 t) from by
      unfold Dat.leavesExact; rw [live1_1 t], after1_1,
    show (dat1 V c).leavesExact 2 t = owns (c : Thread nD τ) (st1_2 t) fullShare ((dat1 V c).after 2 t) from by
      unfold Dat.leavesExact; rw [live1_2 t], after1_2]
  unfold PhiS1
  by_cases h7 : t.val % 8 = 7
  · rw [show (dat1 V c).leavesExact 3 t = owns (c : Thread nD τ) (st1_3 t) fullShare ((dat1 V c).after 3 t) from by
      unfold Dat.leavesExact; rw [live1_3 t h7], after1_3]
    iintro ⟨⟨⟨%xs, HS, %hS⟩, HR, Hg⟩, Ho, ⟨%d0, H0⟩, ⟨%d1, H1⟩, ⟨%d2, H2⟩, ⟨%d3, H3⟩⟩
    iapply (sound_kernel1_fin c Set.univ (grid1.coords t) ((hcond1 t).mpr h7) _ _ _ _ _ _ _ _ _ _ (iblk1 V c 0 t) (iblk1 V c 1 t) (iblk1 V c 2 t) xs _)
    isplitl [H0]; · iexact H0
    isplitl [H1]; · iexact H1
    isplitl [H2]; · iexact H2
    isplitl [H3]; · iexists _; iexact H3
    isplitl [HS]; · iexact HS
    rw [coord1_o t, show slab1 (iblk1 V c 0 t) (iblk1 V c 1 t) (iblk1 V c 2 t) = slabAt V c t from rfl, SInv_fin V c t xs hS h7]
    iintro ⟨H0, H1, H2, H3, HS⟩
    isplitl [HS HR Hg]
    · isplitl [HS]
      · iexists _; isplitl [HS]; · iexact HS
        ipureintro; exact SInv_vac V c _ _ (by omega)
      isplitl [HR]; · iexact HR
      iexact Hg
    isplitl [Ho]; · iexact Ho
    isplitl [H0]; · iexact H0
    isplitl [H1]; · iexact H1
    isplitl [H2]; · iexact H2
    iexact H3
  · rw [Dat.leavesExact_idle (dat1 V c) 3 t (idle1_3 t h7) (noFlush1_3 t h7)]
    iintro ⟨⟨⟨%xs, HS, %hS⟩, HR, Hg⟩, Ho, ⟨%d0, H0⟩, ⟨%d1, H1⟩, ⟨%d2, H2⟩, ⟨%d3, H3⟩⟩
    iapply (sound_kernel1_idle c Set.univ (grid1.coords t) (fun h => h7 ((hcond1 t).mp h)) _ _ _ _ _ _ _ _ _ _ (iblk1 V c 0 t) (iblk1 V c 1 t) (iblk1 V c 2 t) ((dat1 V c).before 3 t d3) xs _)
    isplitl [H0]; · iexact H0
    isplitl [H1]; · iexact H1
    isplitl [H2]; · iexact H2
    isplitl [H3]; · iexact H3
    isplitl [HS]; · iexact HS
    rw [coord1_o t, show slab1 (iblk1 V c 0 t) (iblk1 V c 1 t) (iblk1 V c 2 t) = slabAt V c t from rfl]
    iintro ⟨H0, H1, H2, H3, HS⟩
    isplitl [HS HR Hg]
    · isplitl [HS]
      · iexists _; isplitl [HS]; · iexact HS
        ipureintro; exact SInv_step V c t xs hS h7
      isplitl [HR]; · iexact HR
      iexact Hg
    isplitl [Ho]; · iexact Ho
    isplitl [H0]; · iexact H0
    isplitl [H1]; · iexact H1
    isplitl [H2]; · iexact H2
    iexists _; iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BRun.lean ====
/-
  The whole program's run: the host's two operations before the kernels (the leading axis of h0 dropped; the two biases
  added), the two kernel regions one after the other, the host's two operations after them (a leading unit axis put in
  front of each result). The unscoped buffers' contents are followed from boundary to boundary — after a host stretch the
  operations' values, after a region its output array at what the pipeline's write-backs leave and everything else as it
  was — and every weakly fair execution is shown to terminate with every unscoped buffer at the last boundary's contents.
-/
import proofs.«111199_j25512105738297_2_alg».proof.Proof.BRegion0
import proofs.«111199_j25512105738297_2_alg».proof.Proof.BRegion1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host's first two operations (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the host's last two operations: what the program ends with. -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2`, left at `W3`. Its invariant
    takes the scratch out of the scoped buffers the pipeline does not stage, at whatever it holds, and gives it back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = PhiS1 (V2 m ρ) c 0 from rfl]; unfold PhiS1 Rest1
    change iprop(_ ∗ _ ∗ Pipeline.scopedRest (Ix := Unit) (Name := ℕ) (U := UR sig nD τ) (Lvl := ℕ) (Val := Elt F) spec1 c) ⊢ _
    rw [Pipeline.scopedRest_split_of_list spec1 c [cc1_scratch0] (by decide) (by decide)]
    simp only [bigSepL_singleton]
    change iprop(_ ∗ _ ∗ iprop((∃ f : Buf (Elt F) ((c : Thread nD τ).loc cc1_scratch0), ((c : Thread nD τ).loc cc1_scratch0) ↦{fullShare} f) ∗ Pipeline.scopedRestBut (Ix := Unit) (Name := ℕ) (U := UR sig nD τ) (Lvl := ℕ) (Val := Elt F) spec1 c [cc1_scratch0])) ⊢ _
    iintro ⟨Hp, -, ⟨%f, Hs⟩, Hr⟩
    isplitl [Hs]
    · iexists f
      isplitl [Hs]
      · rw [owns_whole]; iexact Hs
      ipureintro; exact SInv_vac (V2 m ρ) c 0 f rfl
    isplitl [Hr]; · iexact Hr
    iexact Hp
  hout c := by
    rw [Pipeline.ownSems0_none, show (pdats m ρ 1 c).Φ (Fin.last _) = PhiS1 (V2 m ρ) c (Fin.last cfg1.N).val from rfl]; unfold PhiS1 Rest1
    change _ ⊢ iprop(_ ∗ _ ∗ Pipeline.scopedRest (Ix := Unit) (Name := ℕ) (U := UR sig nD τ) (Lvl := ℕ) (Val := Elt F) spec1 c)
    rw [Pipeline.scopedRest_split_of_list spec1 c [cc1_scratch0] (by decide) (by decide)]
    simp only [bigSepL_singleton]
    change _ ⊢ iprop(_ ∗ _ ∗ iprop((∃ f : Buf (Elt F) ((c : Thread nD τ).loc cc1_scratch0), ((c : Thread nD τ).loc cc1_scratch0) ↦{fullShare} f) ∗ Pipeline.scopedRestBut (Ix := Unit) (Name := ℕ) (U := UR sig nD τ) (Lvl := ℕ) (Val := Elt F) spec1 c [cc1_scratch0]))
    iintro ⟨⟨%xs, Hs, -⟩, Hr, Hp⟩
    isplitl [Hp]; · iexact Hp
    isplitr; · iempintro
    isplitl [Hs]
    · iexists xs; rw [owns_whole]; exact .rfl
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting, and
    every final state has every unscoped buffer at the last boundary's contents `W4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- info: 'Cert.Kernel.Hand.run' depends on axioms: [propext, Classical.choice, Quot.sound] -/
#guard_msgs in #print axioms run

end Cert.Kernel.Hand

end
-- ==== Proof.BArgs.lean ====
/-
  No step of the program writes an argument array: the host's operations write only their own results, a kernel region
  changes only its output array (an argument it stages is read through an input window and left as it was). So each
  argument's buffer at the last boundary holds its launch contents, and the program's run gives the frame: it terminates,
  faults nowhere, and leaves the eight arguments unchanged.
-/
import proofs.«111199_j25512105738297_2_alg».proof.Proof.BRun
import Idealize.ShloMosaic.Lib.StableHlo.Run

set_option maxRecDepth 16384

noncomputable section

namespace Cert.Kernel.Hand

open Cert.Kernel Cert.Kernel.Gen
open Idealize.ShloMosaic Idealize.ShloMosaic.TcCoe
open Idealize.SL.Sem
open Idealize.ShloMosaic.Pipeline (Dat)

variable {F : FTy → Type} [FloatOps F]
variable (m : (ℓ : Loc nD τ sig) → Buf (Elt F) ℓ) (ρ : Dev nD → PrngReg)

theorem W4_arg0 (c : Dev nD) : W4 m ρ c (Proc.devRef .tc main_arg0) = m ((c.tc : Thread nD τ).loc main_arg0) :=
  calc W4 m ρ c (Proc.devRef .tc main_arg0)
    _ = W3 m ρ c (Proc.devRef .tc main_arg0) := by
          show StableHlo.after hostOps2 (W3 m ρ c) (Proc.devRef .tc main_arg0) = _; after_results
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = m ((c.tc : Thread nD τ).loc main_arg0) := by
          show StableHlo.after hostOps0 (W0 m ρ c) (Proc.devRef .tc main_arg0) = _; after_results

theorem W4_arg1 (c : Dev nD) : W4 m ρ c (Proc.devRef .tc main_arg1) = m ((c.tc : Thread nD τ).loc main_arg1) :=
  calc W4 m ρ c (Proc.devRef .tc main_arg1)
    _ = W3 m ρ c (Proc.devRef .tc main_arg1) := by
          show StableHlo.after hostOps2 (W3 m ρ c) (Proc.devRef .tc main_arg1) = _; after_results
    _ = W2 m ρ c (Proc.devRef .tc main_arg1) := W3_of_ne m ρ c main_arg1 (by decide)
    _ = W1 m ρ c (Proc.devRef .tc main_arg1) := W2_of_ne m ρ c main_arg1 (by decide)
    _ = m ((c.tc : Thread nD τ).loc main_arg1) := by
          show StableHlo.after hostOps0 (W0 m ρ c) (Proc.devRef .tc main_arg1) = _; after_results

theorem W4_arg2 (c : Dev nD) : W4 m ρ c (Proc.devRef .tc main_arg2) = m ((c.tc : Thread nD τ).loc main_arg2) :=
  calc W4 m ρ c (Proc.devRef .tc main_arg2)
    _ = W3 m ρ c (Proc.devRef .tc main_arg2) := by
          show StableHlo.after hostOps2 (W3 m ρ c) (Proc.devRef .tc main_arg2) = _; after_results
    _ = W2 m ρ c (Proc.devRef .tc main_arg2) := W3_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = m ((c.tc : Thread nD τ).loc main_arg2) := by
          show StableHlo.after hostOps0 (W0 m ρ c) (Proc.devRef .tc main_arg2) = _; after_results

theorem W4_arg3 (c : Dev nD) : W4 m ρ c (Proc.devRef .tc main_arg3) = m ((c.tc : Thread nD τ).loc main_arg3) :=
  calc W4 m ρ c (Proc.devRef .tc main_arg3)
    _ = W3 m ρ c (Proc.devRef .tc main_arg3) := by
          show StableHlo.after hostOps2 (W3 m ρ c) (Proc.devRef .tc main_arg3) = _; after_results
    _ = W2 m ρ c (Proc.devRef .tc main_arg3) := W3_of_ne m ρ c main_arg3 (by decide)
    _ = W1 m ρ c (Proc.devRef .tc main_arg3) := W2_of_ne m ρ c main_arg3 (by decide)
    _ = m ((c.tc : Thread nD τ).loc main_arg3) := by
          show StableHlo.after hostOps0 (W0 m ρ c) (Proc.devRef .tc main_arg3) = _; after_results

theorem W4_arg4 (c : Dev nD) : W4 m ρ c (Proc.devRef .tc main_arg4) = m ((c.tc : Thread nD τ).loc main_arg4) :=
  calc W4 m ρ c (Proc.devRef .tc main_arg4)
    _ = W3 m ρ c (Proc.devRef .tc main_arg4) := by
          show StableHlo.after hostOps2 (W3 m ρ c) (Proc.devRef .tc main_arg4) = _; after_results
    _ = W2 m ρ c (Proc.devRef .tc main_arg4) := W3_of_ne m ρ c main_arg4 (by decide)
    _ = W1 m ρ c (Proc.devRef .tc main_arg4) := (W2_arr m ρ c 3).trans (((dat0 (V1 m ρ) c).arrAt_in 3 rfl _).trans (A_eq0 (V1 m ρ) c 3))
    _ = m ((c.tc : Thread nD τ).loc main_arg4) := by
          show StableHlo.after hostOps0 (W0 m ρ c) (Proc.devRef .tc main_arg4) = _; after_results

theorem W4_arg5 (c : Dev nD) : W4 m ρ c (Proc.devRef .tc main_arg5) = m ((c.tc : Thread nD τ).loc main_arg5) :=
  calc W4 m ρ c (Proc.devRef .tc main_arg5)
    _ = W3 m ρ c (Proc.devRef .tc main_arg5) := by
          show StableHlo.after hostOps2 (W3 m ρ c) (Proc.devRef .tc main_arg5) = _; after_results
    _ = W2 m ρ c (Proc.devRef .tc main_arg5) := W3_of_ne m ρ c main_arg5 (by decide)
    _ = W1 m ρ c (Proc.devRef .tc main_arg5) := W2_of_ne m ρ c main_arg5 (by decide)
    _ = m ((c.tc : Thread nD τ).loc main_arg5) := by
          show StableHlo.after hostOps0 (W0 m ρ c) (Proc.devRef .tc main_arg5) = _; after_results

theorem W4_arg6 (c : Dev nD) : W4 m ρ c (Proc.devRef .tc main_arg6) = m ((c.tc : Thread nD τ).loc main_arg6) :=
  calc W4 m ρ c (Proc.devRef .tc main_arg6)
    _ = W3 m ρ c (Proc.devRef .tc main_arg6) := by
          show StableHlo.after hostOps2 (W3 m ρ c) (Proc.devRef .tc main_arg6) = _; after_results
    _ = W2 m ρ c (Proc.devRef .tc main_arg6) := (W3_arr m ρ c 1).trans (((dat1 (V2 m ρ) c).arrAt_in 1 rfl _).trans (A_eq1 (V2 m ρ) c 1))
    _ = W1 m ρ c (Proc.devRef .tc main_arg6) := W2_of_ne m ρ c main_arg6 (by decide)
    _ = m ((c.tc : Thread nD τ).loc main_arg6) := by
          show StableHlo.after hostOps0 (W0 m ρ c) (Proc.devRef .tc main_arg6) = _; after_results

theorem W4_arg7 (c : Dev nD) : W4 m ρ c (Proc.devRef .tc main_arg7) = m ((c.tc : Thread nD τ).loc main_arg7) :=
  calc W4 m ρ c (Proc.devRef .tc main_arg7)
    _ = W3 m ρ c (Proc.devRef .tc main_arg7) := by
          show StableHlo.after hostOps2 (W3 m ρ c) (Proc.devRef .tc main_arg7) = _; after_results
    _ = W2 m ρ c (Proc.devRef .tc main_arg7) := (W3_arr m ρ c 2).trans (((dat1 (V2 m ρ) c).arrAt_in 2 rfl _).trans (A_eq1 (V2 m ρ) c 2))
    _ = W1 m ρ c (Proc.devRef .tc main_arg7) := W2_of_ne m ρ c main_arg7 (by decide)
    _ = m ((c.tc : Thread nD τ).loc main_arg7) := by
          show StableHlo.after hostOps0 (W0 m ρ c) (Proc.devRef .tc main_arg7) = _; after_results

/-- The frame: every weakly fair execution terminates, nothing faulting, with the eight arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W4_arg0 m ρ c),
      (h c _ (mem_uc main_arg1 (by decide))).trans (W4_arg1 m ρ c),
      (h c _ (mem_uc main_arg2 (by decide))).trans (W4_arg2 m ρ c),
      (h c _ (mem_uc main_arg3 (by decide))).trans (W4_arg3 m ρ c),
      (h c _ (mem_uc main_arg4 (by decide))).trans (W4_arg4 m ρ c),
      (h c _ (mem_uc main_arg5 (by decide))).trans (W4_arg5 m ρ c),
      (h c _ (mem_uc main_arg6 (by decide))).trans (W4_arg6 m ρ c),
      (h c _ (mem_uc main_arg7 (by decide))).trans (W4_arg7 m ρ c)⟩)
    (run m ρ)

end Cert.Kernel.Hand

end
-- ==== Proof.IRegion0.lean ====
/-
  The first kernel region (the recurrent cell), as the pipeline runs it: at grid point n the body reads the whole of x and of h,
  the n-th slab of 256 rows of each weight matrix and the n-th 256 entries of the summed bias, and stores one
  [256, 256] block: columns 256·n … 256·n+255 of the new hidden state. Here: each window's block at a point read off
  the arrays as the region finds them, what the body leaves in the output's buffer as a function of the input
  blocks, the body's triple, and the pipeline's body obligation at every point, at any float instance.
-/
import proofs.«111199_j25512105738297_2_alg».proof.Proof.Gen.KernelIdeal.Launch
import proofs.«111199_j25512105738297_2_alg».proof.Proof.Gen.KernelIdeal.Skeleton
import proofs.«111199_j25512105738297_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not (a block fetched
    once stays: its index does not move). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev rIn0 : Rect S256x4096 := Rect.unit (s := S256x4096) ![0, 0] S256x4096.size inb_S256x4096_S256x4096_0_0
abbrev rBias0 : Rect S256 := Rect.unit (s := S256) ![0] S256.size inb_S256_S256_0
abbrev rOut0 : Rect S256x256 := Rect.unit (s := S256x256) ![0, 0] S256x256.size inb_S256x256_S256x256_0_0

/-- The output block after the body, from the five input blocks: its one store. -/
def out0_5 (x0 x1 x2 x3 : Vec F S256x4096 .f32) (x4 : Vec F S256 .f32) : Vec F S256x256 .f32 :=
  View.canon [⟨rOut0, k0_pay1 (View.ld x0 rIn0) (View.ld x1 rIn0) (View.ld x2 rIn0) (View.ld x3 rIn0) (View.ld x4 rBias0)⟩]

/-- The store covers the block. -/
theorem cover0_5 (p0 : Vec F S256x256 .f32) (y : S256x256.Idx) :
    ∃ pc ∈ ([⟨rOut0, p0⟩] : List (View.Piece (Elt F) S256x256 .f32)), y ∈ pc.1.set :=
  View.cover_of_tiled [⟨rOut0, p0⟩] S256x256.size (by rfl) y

/-! ## The body's triple -/

set_option maxHeartbeats 2000000 in
/-- On whole staging buffers, the inputs' at known contents and the output's at anything, the body runs to its end,
    hands the inputs back as they were and leaves the output at `out0_5` of them. -/
theorem sound_kernel0 (c : Dev nD) (E : Set ℕ) (i : grid0.Coords) (arg1 : Memref sig .tc .vmem S256x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S256x4096 .f32) (harg4 : arg4.IsWhole) (arg5 : Memref sig .tc .vmem S256 .f32) (harg5 : arg5.IsWhole) (arg6 : Memref sig .tc .vmem S256x256 .f32) (harg6 : arg6.IsWhole)
    (x0 x1 x2 x3 : Vec F S256x4096 .f32) (x4 : Vec F S256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__rnn_kernel i arg1 harg1 arg2 harg2 arg3 harg3 arg4 harg4 arg5 harg5 arg6 harg6) K := by
  simp only [cc0__rnn_kernel_eq_skeleton]; unfold cc0__rnn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The arrays as the region finds them; after the body at point `t` each input's buffer at its block and the
    output's at `out0_5` of the input blocks; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IRegion1.lean ====
/-
  The second kernel region (the linear layer and the row softmax), as the pipeline runs it on its 2 × 8 grid: at point
  (m, o) the body reads row block m of the hidden state ([128, 4096]), slab o of 512 rows of the weight matrix and of 512
  bias entries, and stores their product plus bias — 512 columns of logits — into columns 512·o … of a [128, 4096] scratch
  it keeps between points; at o = 7 the scratch holds the whole row block's logits and the body stores their row softmax
  into the output block. Here: the scratch after a store as a pure function, the body's triple in its two cases, the
  invariant (before position n the columns below 512·(n mod 8) hold this row block's logits), the proof data and the
  pipeline's body obligation at every point, at any float instance.
-/
import proofs.«111199_j25512105738297_2_alg».proof.Proof.Gen.KernelIdeal.Launch
import proofs.«111199_j25512105738297_2_alg».proof.Proof.Gen.KernelIdeal.Skeleton
import proofs.«111199_j25512105738297_2_alg».proof.Proof.Gen.KernelIdeal.Points
import Idealize.ShloMosaic.Lib.WritesUnit
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The grid: the body's condition, where the output is idle, the coordinates -/

/-- The body finishes a row block exactly at the points with o = 7. -/
theorem hcond1 : ∀ t : Fin cfg1.N, k1_cond1 (grid1.coords t) = 1#1 ↔ t.val % 8 = 7 :=
  (by decide +kernel : ∀ t : Fin grid1.N, k1_cond1 (grid1.coords t) = 1#1 ↔ t.val % 8 = 7)
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem idle1_3 : ∀ t : Fin cfg1.N, ¬ t.val % 8 = 7 → cfg1.idle 3 (grid1.coords t) = true := by decide +kernel
theorem noFlush1_3 : ∀ t : Fin cfg1.N, ¬ t.val % 8 = 7 → (cfg1.win 3).flush t = false := by decide +kernel
theorem live1_3 : ∀ t : Fin cfg1.N, t.val % 8 = 7 → cfg1.idle 3 (grid1.coords t) = false := by decide +kernel
/-- Point t is (t / 8, t mod 8). -/
theorem coord1_o : ∀ t : Fin cfg1.N, ((grid1.coords t) 1).val = t.val % 8 := by decide +kernel
theorem coord1_m : ∀ t : Fin cfg1.N, ((grid1.coords t) 0).val = t.val / 8 := by decide +kernel

/-! ## The body's accesses and pure values -/

abbrev rH1 : Rect S128x4096 := Rect.unit (s := S128x4096) ![0, 0] S128x4096.size inb_S128x4096_S128x4096_0_0
abbrev rW1 : Rect S512x4096 := Rect.unit (s := S512x4096) ![0, 0] S512x4096.size inb_S512x4096_S512x4096_0_0
abbrev rB1 : Rect S512 := Rect.unit (s := S512) ![0] S512.size inb_S512_S512_0

/-- The 512 columns of logits a point computes, from its three input blocks. -/
def slab1 (x0 : Vec F S128x4096 .f32) (x1 : Vec F S512x4096 .f32) (x2 : Vec F S512 .f32) : Vec F S128x512 .f32 :=
  k1_pay1 (View.ld x0 rH1) (View.ld x1 rW1) (View.ld x2 rB1)

/-- The scratch after a store of `p` at columns 512·o …: `p` there, the old contents elsewhere. -/
def scratchNext (o : ℕ) (p : Vec F S128x512 .f32) (xs : Vec F S128x4096 .f32) : Vec F S128x4096 .f32 :=
  fun y => if h : ∀ a, (![0, 512 * o] : Fin 2 → ℕ) a ≤ (y a).val ∧ (y a).val < (![0, 512 * o] : Fin 2 → ℕ) a + S128x512.size a then
    p (Rect.unitLocal (s := S128x4096) (off := ![0, 512 * o]) (size := S128x512.size) y h) else xs y

/-- The output block the finishing case stores, from the scratch it reads back. -/
def out1_3 (z : Vec F S128x4096 .f32) : Vec F S128x4096 .f32 :=
  View.canon [⟨rH1, k1_pay2 (View.ld z rH1)⟩]

theorem cover1_3 (p0 : Vec F S128x4096 .f32) (y : S128x4096.Idx) :
    ∃ pc ∈ ([⟨rH1, p0⟩] : List (View.Piece (Elt F) S128x4096 .f32)), y ∈ pc.1.set :=
  View.cover_of_tiled [⟨rH1, p0⟩] S128x4096.size (by rfl) y

/-- A store of one slab into the scratch, read back. -/
theorem read_store1 (arg6 : Memref sig .tc .vmem S128x4096 .f32) (f6 : arg6.view.ty.Contents (Elt F)) (i : grid1.Coords) (p : Vec F S128x512 .f32) :
    arg6.view.read (Elt F) (arg6.view.writes (Elt F) f6 [⟨Rect.unit (s := S128x4096) (k1_off1 i) S128x512.size (k1_off1_inb i), p⟩])
      = scratchNext (i 1).val p (arg6.view.read (Elt F) f6) := by
  funext y
  rw [View.read_writes_cons_unit arg6.view f6 (k1_off1_inb i) p [] y (k1_off1_eq i)]
  unfold scratchNext
  split <;> rfl

/-! ## The body's triple, in its two cases -/

set_option maxHeartbeats 2000000 in
/-- Away from the end of a row block: the slab goes into the scratch, the output's buffer is not touched. -/
theorem sound_kernel1_idle (c : Dev nD) (E : Set ℕ) (i : grid1.Coords) (hc : ¬ k1_cond1 i = 1#1) (arg2 : Memref sig .tc .vmem S128x4096 .f32) (harg2 : arg2.IsWhole) (arg3 : Memref sig .tc .vmem S512x4096 .f32) (harg3 : arg3.IsWhole) (arg4 : Memref sig .tc .vmem S512 .f32) (harg4 : arg4.IsWhole) (arg5 : Memref sig .tc .vmem S128x4096 .f32) (harg5 : arg5.IsWhole) (arg6 : Memref sig .tc .vmem S128x4096 .f32) (harg6 : arg6.IsWhole)
    (x0 : Vec F S128x4096 .f32) (x1 : Vec F S512x4096 .f32) (x2 : Vec F S512 .f32) (d5 xs : Vec F S128x4096 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare d5 ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare d5
            ∗ owns (c : Thread nD τ) arg6 fullShare (scratchNext (i 1).val (slab1 x0 x1 x2) xs)) -∗ K ⟨⟩))
      ⊢ wp frame (wpE (defs₀ (F := F)) Variants.none c none) E (cc1__lin_softmax_kernel i arg2 harg2 arg3 harg3 arg4 harg4 arg5 harg5 arg6 harg6) K := by
  simp only [cc1__lin_softmax_kernel_eq_skeleton]; unfold cc1__lin_softmax_kernel_skel
  unfold owns
  iintro ⟨⟨%f0, %hf0, H0⟩, ⟨%f1, %hf1, H1⟩, ⟨%f2, %hf2, H2⟩, ⟨%f5, %hf5, H5⟩, ⟨%f6, %hf6, H6⟩, Hk⟩
  subst hf0 hf1 hf2 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists f5; isplitr; · ipureintro; rfl
    iexact H5
  iexists _; isplitr
  swap; · iexact H6
  ipureintro
  exact read_store1 arg6 f6 i _

set_option maxHeartbeats 2000000 in
/-- At the end of a row block: the slab goes into the scratch, and the output's buffer gets the softmax of the scratch. -/
theorem sound_kernel1_fin (c : Dev nD) (E : Set ℕ) (i : grid1.Coords) (hc : k1_cond1 i = 1#1) (arg2 : Memref sig .tc .vmem S128x4096 .f32) (harg2 : arg2.IsWhole) (arg3 : Memref sig .tc .vmem S512x4096 .f32) (harg3 : arg3.IsWhole) (arg4 : Memref sig .tc .vmem S512 .f32) (harg4 : arg4.IsWhole) (arg5 : Memref sig .tc .vmem S128x4096 .f32) (harg5 : arg5.IsWhole) (arg6 : Memref sig .tc .vmem S128x4096 .f32) (harg6 : arg6.IsWhole)
    (x0 : Vec F S128x4096 .f32) (x1 : Vec F S512x4096 .f32) (x2 : Vec F S512 .f32) (xs : Vec F S128x4096 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (out1_3 (scratchNext (i 1).val (slab1 x0 x1 x2) xs))
            ∗ owns (c : Thread nD τ) arg6 fullShare (scratchNext (i 1).val (slab1 x0 x1 x2) xs)) -∗ K ⟨⟩))
      ⊢ wp frame (wpE (defs₀ (F := F)) Variants.none c none) E (cc1__lin_softmax_kernel i arg2 harg2 arg3 harg3 arg4 harg4 arg5 harg5 arg6 harg6) K := by
  simp only [cc1__lin_softmax_kernel_eq_skeleton]; unfold cc1__lin_softmax_kernel_skel
  unfold owns
  iintro ⟨⟨%f0, %hf0, H0⟩, ⟨%f1, %hf1, H1⟩, ⟨%f2, %hf2, H2⟩, ⟨%d5, %f5, -, H5⟩, ⟨%f6, %hf6, H6⟩, Hk⟩
  subst hf0 hf1 hf2 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H5]
  · iexists _; isplitr
    swap; · iexact H5
    ipureintro
    sl_unfold_run_names
    refine (View.read_writes_eq_canon _ _ _ (cover1_3 _)).trans ?_
    unfold out1_3
    rw [View.readAt_eq_ld, read_store1]
    rfl
  iexists _; isplitr
  swap; · iexact H6
  ipureintro
  sl_unfold_run_names
  exact read_store1 arg6 f6 i _

/-! ## What the scratch holds between points -/

/-- The 512 columns of logits point `s` computes, from the arrays as the region finds them. -/
def slabAt (c : Dev nD) (s : Fin cfg1.N) : Vec F S128x512 .f32 :=
  slab1 (iblk1 V c 0 s) (iblk1 V c 1 s) (iblk1 V c 2 s)

/-- A point by its number. -/
def pt1 (n : ℕ) (h : n < 16) : Fin cfg1.N := ⟨n, lt_of_lt_of_eq h N_1.symm⟩

/-- Row block `mb`'s logits, [128, 4096]: column q comes from the slab of point 8·mb + q / 512, at column q mod 512. -/
def logitsBlk (c : Dev nD) (mb : ℕ) : Vec F S128x4096 .f32 := fun y =>
  slabAt V c (pt1 (8 * (mb % 2) + (y 1).val / 512) (by have := ValueIdx.idx2_lt1 y; omega))
    (ValueIdx.ix2 (n0 := 128) (n1 := 512) (y 0) ⟨(y 1).val % 512, Nat.mod_lt _ (by decide)⟩)

theorem logitsBlk_apply (c : Dev nD) (mb : ℕ) (y : S128x4096.Idx) (s : Fin cfg1.N) (x : S128x512.Idx)
    (hs : s.val = 8 * (mb % 2) + (y 1).val / 512) (hx0 : (x 0).val = (y 0).val) (hx1 : (x 1).val = (y 1).val % 512) :
    logitsBlk V c mb y = slabAt V c s x := by
  unfold logitsBlk
  exact congr (congrArg (slabAt V c) (Fin.ext hs.symm))
    (funext fun a => Fin.ext (by match a with | ⟨0, _⟩ => exact hx0.symm | ⟨1, _⟩ => exact hx1.symm))

theorem scratchNext_in (o : ℕ) (p : Vec F S128x512 .f32) (xs : Vec F S128x4096 .f32) (y : S128x4096.Idx)
    (h1 : 512 * o ≤ (y 1).val) (h2 : (y 1).val < 512 * o + 512) (x : S128x512.Idx) (hx0 : (x 0).val = (y 0).val)
    (hx1 : (x 1).val + 512 * o = (y 1).val) : scratchNext o p xs y = p x := by
  have hmem : ∀ a, (![0, 512 * o] : Fin 2 → ℕ) a ≤ (y a).val ∧ (y a).val < (![0, 512 * o] : Fin 2 → ℕ) a + S128x512.size a :=
    Fin.forall_fin_two.mpr ⟨⟨Nat.zero_le _, by have := ValueIdx.idx2_lt0 y; show (y 0).val < 0 + 128; omega⟩,
      ⟨h1, h2⟩⟩
  unfold scratchNext
  rw [dif_pos hmem]
  exact congrArg p (funext fun a => Fin.ext (by
    match a with
    | ⟨0, _⟩ => show (y 0).val - 0 = (x 0).val; omega
    | ⟨1, _⟩ => show (y 1).val - 512 * o = (x 1).val; omega))

theorem scratchNext_out (o : ℕ) (p : Vec F S128x512 .f32) (xs : Vec F S128x4096 .f32) (y : S128x4096.Idx)
    (h : (y 1).val < 512 * o ∨ 512 * o + 512 ≤ (y 1).val) : scratchNext o p xs y = xs y := by
  unfold scratchNext
  rw [dif_neg]
  intro hmem
  have h1 : 512 * o ≤ (y 1).val ∧ (y 1).val < 512 * o + 512 := hmem 1
  omega

/-- Before position `n` the columns below 512·(n mod 8) hold the logits of the row block in progress. -/
def SInv (c : Dev nD) (n : ℕ) (xs : Vec F S128x4096 .f32) : Prop :=
  ∀ y : S128x4096.Idx, (y 1).val < 512 * (n % 8) → xs y = logitsBlk V c (n / 8) y

/-- A point that is not the last of its row block adds its 512 columns. -/
theorem SInv_step (c : Dev nD) (t : Fin cfg1.N) (xs : Vec F S128x4096 .f32) (h : SInv V c t.val xs) (h7 : ¬ t.val % 8 = 7) :
    SInv V c (t.val + 1) (scratchNext (t.val % 8) (slabAt V c t) xs) := by
  have ht : t.val < 16 := lt_of_lt_of_eq t.isLt N_1
  intro y hy
  have e1 : (t.val + 1) % 8 = t.val % 8 + 1 := by omega
  have e2 : (t.val + 1) / 8 = t.val / 8 := by omega
  rw [e1] at hy
  rw [e2]
  by_cases hlo : (y 1).val < 512 * (t.val % 8)
  · rw [scratchNext_out _ _ _ _ (Or.inl hlo)]
    exact h y hlo
  · have hq : (y 1).val % 512 + 512 * (t.val % 8) = (y 1).val := by omega
    rw [scratchNext_in (t.val % 8) _ xs y (by omega) (by omega)
      (ValueIdx.ix2 (n0 := 128) (n1 := 512) (y 0) ⟨(y 1).val % 512, Nat.mod_lt _ (by decide)⟩) rfl hq]
    exact (logitsBlk_apply V c (t.val / 8) y t _ (by omega) rfl rfl).symm

/-- The last point of a row block completes it: the scratch is the row block's logits. -/
theorem SInv_fin (c : Dev nD) (t : Fin cfg1.N) (xs : Vec F S128x4096 .f32) (h : SInv V c t.val xs) (h7 : t.val % 8 = 7) :
    scratchNext (t.val % 8) (slabAt V c t) xs = logitsBlk V c (t.val / 8) := by
  have ht : t.val < 16 := lt_of_lt_of_eq t.isLt N_1
  funext y
  have hy1 := ValueIdx.idx2_lt1 y
  by_cases hlo : (y 1).val < 512 * (t.val % 8)
  · rw [scratchNext_out _ _ _ _ (Or.inl hlo)]
    exact h y hlo
  · have hq : (y 1).val % 512 + 512 * (t.val % 8) = (y 1).val := by omega
    rw [scratchNext_in (t.val % 8) _ xs y (by omega) (by omega)
      (ValueIdx.ix2 (n0 := 128) (n1 := 512) (y 0) ⟨(y 1).val % 512, Nat.mod_lt _ (by decide)⟩) rfl hq]
    exact (logitsBlk_apply V c (t.val / 8) y t _ (by omega) rfl rfl).symm

/-- After the last point of a row block nothing is claimed of the scratch. -/
theorem SInv_vac (c : Dev nD) (n : ℕ) (xs : Vec F S128x4096 .f32) (h0 : n % 8 = 0) : SInv V c n xs := by
  intro y hy; rw [h0] at hy; omega

/-! ## The invariant and the proof data -/

/-- The scratch operand: a whole scoped buffer of the kernel's own. -/
abbrev scM1 : Memref sig .tc .vmem S128x4096 .f32 := Memref.whole cc1_scratch0

/-- The core's other scoped buffers that the pipeline does not stage, at some contents. -/
def Rest1 (c : Dev nD) : sProp 𝕄 :=
  Pipeline.scopedRestBut (Ix := Unit) (Name := ℕ) (U := UR sig nD τ) (Lvl := ℕ) (Val := Elt F) spec1 c [cc1_scratch0]

/-- The region's invariant before position `n`: the scratch at contents satisfying `SInv`, the other scoped buffers and the
    generator register at something. -/
def PhiS1 (c : Dev nD) (n : ℕ) : sProp 𝕄 :=
  iprop((∃ xs, owns (c : Thread nD τ) scM1 fullShare xs ∗ ⌜SInv V c n xs⌝) ∗ Rest1 c ∗ (∃ r, prngReg c r))

/-- The arrays as the region finds them; after the body each input's buffer at its block; the output's, where the body
    stores it, at the softmax of the row block's logits; the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (logitsBlk V c (t.val / 8))
  Φ t := PhiS1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (logitsBlk V c (t.val / 8)) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 2000000 in
/-- The body at any point: the inputs' buffers hold their blocks; the invariant hands over the scratch and takes it back
    with the point's columns added; at the last point of a row block the output's buffer gets the softmax of the completed
    logits, elsewhere it is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = PhiS1 V c (t.val + 1) from rfl,
    show (dat1 V c).Φ t.castSucc = PhiS1 V c t.val from rfl]
  rw [show (dat1 V c).leavesExact 0 t = owns (c : Thread nD τ) (st1_0 t) fullShare ((dat1 V c).after 0 t) from by
      unfold Dat.leavesExact; rw [live1_0 t], after1_0,
    show (dat1 V c).leavesExact 1 t = owns (c : Thread nD τ) (st1_1 t) fullShare ((dat1 V c).after 1 t) from by
      unfold Dat.leavesExact; rw [live1_1 t], after1_1,
    show (dat1 V c).leavesExact 2 t = owns (c : Thread nD τ) (st1_2 t) fullShare ((dat1 V c).after 2 t) from by
      unfold Dat.leavesExact; rw [live1_2 t], after1_2]
  unfold PhiS1
  by_cases h7 : t.val % 8 = 7
  · rw [show (dat1 V c).leavesExact 3 t = owns (c : Thread nD τ) (st1_3 t) fullShare ((dat1 V c).after 3 t) from by
      unfold Dat.leavesExact; rw [live1_3 t h7], after1_3]
    iintro ⟨⟨⟨%xs, HS, %hS⟩, HR, Hg⟩, Ho, ⟨%d0, H0⟩, ⟨%d1, H1⟩, ⟨%d2, H2⟩, ⟨%d3, H3⟩⟩
    iapply (sound_kernel1_fin c Set.univ (grid1.coords t) ((hcond1 t).mpr h7) _ _ _ _ _ _ _ _ _ _ (iblk1 V c 0 t) (iblk1 V c 1 t) (iblk1 V c 2 t) xs _)
    isplitl [H0]; · iexact H0
    isplitl [H1]; · iexact H1
    isplitl [H2]; · iexact H2
    isplitl [H3]; · iexists _; iexact H3
    isplitl [HS]; · iexact HS
    rw [coord1_o t, show slab1 (iblk1 V c 0 t) (iblk1 V c 1 t) (iblk1 V c 2 t) = slabAt V c t from rfl, SInv_fin V c t xs hS h7]
    iintro ⟨H0, H1, H2, H3, HS⟩
    isplitl [HS HR Hg]
    · isplitl [HS]
      · iexists _; isplitl [HS]; · iexact HS
        ipureintro; exact SInv_vac V c _ _ (by omega)
      isplitl [HR]; · iexact HR
      iexact Hg
    isplitl [Ho]; · iexact Ho
    isplitl [H0]; · iexact H0
    isplitl [H1]; · iexact H1
    isplitl [H2]; · iexact H2
    iexact H3
  · rw [Dat.leavesExact_idle (dat1 V c) 3 t (idle1_3 t h7) (noFlush1_3 t h7)]
    iintro ⟨⟨⟨%xs, HS, %hS⟩, HR, Hg⟩, Ho, ⟨%d0, H0⟩, ⟨%d1, H1⟩, ⟨%d2, H2⟩, ⟨%d3, H3⟩⟩
    iapply (sound_kernel1_idle c Set.univ (grid1.coords t) (fun h => h7 ((hcond1 t).mp h)) _ _ _ _ _ _ _ _ _ _ (iblk1 V c 0 t) (iblk1 V c 1 t) (iblk1 V c 2 t) ((dat1 V c).before 3 t d3) xs _)
    isplitl [H0]; · iexact H0
    isplitl [H1]; · iexact H1
    isplitl [H2]; · iexact H2
    isplitl [H3]; · iexact H3
    isplitl [HS]; · iexact HS
    rw [coord1_o t, show slab1 (iblk1 V c 0 t) (iblk1 V c 1 t) (iblk1 V c 2 t) = slabAt V c t from rfl]
    iintro ⟨H0, H1, H2, H3, HS⟩
    isplitl [HS HR Hg]
    · isplitl [HS]
      · iexists _; isplitl [HS]; · iexact HS
        ipureintro; exact SInv_step V c t xs hS h7
      isplitl [HR]; · iexact HR
      iexact Hg
    isplitl [Ho]; · iexact Ho
    isplitl [H0]; · iexact H0
    isplitl [H1]; · iexact H1
    isplitl [H2]; · iexact H2
    iexists _; iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IRun.lean ====
/-
  The whole program's run: the host's two operations before the kernels (the leading axis of h0 dropped; the two biases
  added), the two kernel regions one after the other, the host's two operations after them (a leading unit axis put in
  front of each result). The unscoped buffers' contents are followed from boundary to boundary — after a host stretch the
  operations' values, after a region its output array at what the pipeline's write-backs leave and everything else as it
  was — and every weakly fair execution is shown to terminate with every unscoped buffer at the last boundary's contents.
-/
import proofs.«111199_j25512105738297_2_alg».proof.Proof.IRegion0
import proofs.«111199_j25512105738297_2_alg».proof.Proof.IRegion1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host's first two operations (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the host's last two operations: what the program ends with. -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `W2`, left at `W3`. Its invariant
    takes the scratch out of the scoped buffers the pipeline does not stage, at whatever it holds, and gives it back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = PhiS1 (V2 m ρ) c 0 from rfl]; unfold PhiS1 Rest1
    change iprop(_ ∗ _ ∗ Pipeline.scopedRest (Ix := Unit) (Name := ℕ) (U := UR sig nD τ) (Lvl := ℕ) (Val := Elt F) spec1 c) ⊢ _
    rw [Pipeline.scopedRest_split_of_list spec1 c [cc1_scratch0] (by decide) (by decide)]
    simp only [bigSepL_singleton]
    change iprop(_ ∗ _ ∗ iprop((∃ f : Buf (Elt F) ((c : Thread nD τ).loc cc1_scratch0), ((c : Thread nD τ).loc cc1_scratch0) ↦{fullShare} f) ∗ Pipeline.scopedRestBut (Ix := Unit) (Name := ℕ) (U := UR sig nD τ) (Lvl := ℕ) (Val := Elt F) spec1 c [cc1_scratch0])) ⊢ _
    iintro ⟨Hp, -, ⟨%f, Hs⟩, Hr⟩
    isplitl [Hs]
    · iexists f
      isplitl [Hs]
      · rw [owns_whole]; iexact Hs
      ipureintro; exact SInv_vac (V2 m ρ) c 0 f rfl
    isplitl [Hr]; · iexact Hr
    iexact Hp
  hout c := by
    rw [Pipeline.ownSems0_none, show (pdats m ρ 1 c).Φ (Fin.last _) = PhiS1 (V2 m ρ) c (Fin.last cfg1.N).val from rfl]; unfold PhiS1 Rest1
    change _ ⊢ iprop(_ ∗ _ ∗ Pipeline.scopedRest (Ix := Unit) (Name := ℕ) (U := UR sig nD τ) (Lvl := ℕ) (Val := Elt F) spec1 c)
    rw [Pipeline.scopedRest_split_of_list spec1 c [cc1_scratch0] (by decide) (by decide)]
    simp only [bigSepL_singleton]
    change _ ⊢ iprop(_ ∗ _ ∗ iprop((∃ f : Buf (Elt F) ((c : Thread nD τ).loc cc1_scratch0), ((c : Thread nD τ).loc cc1_scratch0) ↦{fullShare} f) ∗ Pipeline.scopedRestBut (Ix := Unit) (Name := ℕ) (U := UR sig nD τ) (Lvl := ℕ) (Val := Elt F) spec1 c [cc1_scratch0]))
    iintro ⟨⟨%xs, Hs, -⟩, Hr, Hp⟩
    isplitl [Hp]; · iexact Hp
    isplitr; · iempintro
    isplitl [Hs]
    · iexists xs; rw [owns_whole]; exact .rfl
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting, and
    every final state has every unscoped buffer at the last boundary's contents `W4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- info: 'Cert.KernelIdeal.Hand.run' depends on axioms: [propext, Classical.choice, Quot.sound] -/
#guard_msgs in #print axioms run

end Cert.KernelIdeal.Hand

end
-- ==== Proof.IArgs.lean ====
/-
  No step of the program writes an argument array: the host's operations write only their own results, a kernel region
  changes only its output array (an argument it stages is read through an input window and left as it was). So each
  argument's buffer at the last boundary holds its launch contents, and the program's run gives the frame: it terminates,
  faults nowhere, and leaves the eight arguments unchanged.
-/
import proofs.«111199_j25512105738297_2_alg».proof.Proof.IRun
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat)

variable {F : FTy → Type} [FloatOps F]
variable (m : (ℓ : Loc nD τ sig) → Buf (Elt F) ℓ) (ρ : Dev nD → PrngReg)

theorem W4_arg0 (c : Dev nD) : W4 m ρ c (Proc.devRef .tc main_arg0) = m ((c.tc : Thread nD τ).loc main_arg0) :=
  calc W4 m ρ c (Proc.devRef .tc main_arg0)
    _ = W3 m ρ c (Proc.devRef .tc main_arg0) := by
          show StableHlo.after hostOps2 (W3 m ρ c) (Proc.devRef .tc main_arg0) = _; after_results
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = m ((c.tc : Thread nD τ).loc main_arg0) := by
          show StableHlo.after hostOps0 (W0 m ρ c) (Proc.devRef .tc main_arg0) = _; after_results

theorem W4_arg1 (c : Dev nD) : W4 m ρ c (Proc.devRef .tc main_arg1) = m ((c.tc : Thread nD τ).loc main_arg1) :=
  calc W4 m ρ c (Proc.devRef .tc main_arg1)
    _ = W3 m ρ c (Proc.devRef .tc main_arg1) := by
          show StableHlo.after hostOps2 (W3 m ρ c) (Proc.devRef .tc main_arg1) = _; after_results
    _ = W2 m ρ c (Proc.devRef .tc main_arg1) := W3_of_ne m ρ c main_arg1 (by decide)
    _ = W1 m ρ c (Proc.devRef .tc main_arg1) := W2_of_ne m ρ c main_arg1 (by decide)
    _ = m ((c.tc : Thread nD τ).loc main_arg1) := by
          show StableHlo.after hostOps0 (W0 m ρ c) (Proc.devRef .tc main_arg1) = _; after_results

theorem W4_arg2 (c : Dev nD) : W4 m ρ c (Proc.devRef .tc main_arg2) = m ((c.tc : Thread nD τ).loc main_arg2) :=
  calc W4 m ρ c (Proc.devRef .tc main_arg2)
    _ = W3 m ρ c (Proc.devRef .tc main_arg2) := by
          show StableHlo.after hostOps2 (W3 m ρ c) (Proc.devRef .tc main_arg2) = _; after_results
    _ = W2 m ρ c (Proc.devRef .tc main_arg2) := W3_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = m ((c.tc : Thread nD τ).loc main_arg2) := by
          show StableHlo.after hostOps0 (W0 m ρ c) (Proc.devRef .tc main_arg2) = _; after_results

theorem W4_arg3 (c : Dev nD) : W4 m ρ c (Proc.devRef .tc main_arg3) = m ((c.tc : Thread nD τ).loc main_arg3) :=
  calc W4 m ρ c (Proc.devRef .tc main_arg3)
    _ = W3 m ρ c (Proc.devRef .tc main_arg3) := by
          show StableHlo.after hostOps2 (W3 m ρ c) (Proc.devRef .tc main_arg3) = _; after_results
    _ = W2 m ρ c (Proc.devRef .tc main_arg3) := W3_of_ne m ρ c main_arg3 (by decide)
    _ = W1 m ρ c (Proc.devRef .tc main_arg3) := W2_of_ne m ρ c main_arg3 (by decide)
    _ = m ((c.tc : Thread nD τ).loc main_arg3) := by
          show StableHlo.after hostOps0 (W0 m ρ c) (Proc.devRef .tc main_arg3) = _; after_results

theorem W4_arg4 (c : Dev nD) : W4 m ρ c (Proc.devRef .tc main_arg4) = m ((c.tc : Thread nD τ).loc main_arg4) :=
  calc W4 m ρ c (Proc.devRef .tc main_arg4)
    _ = W3 m ρ c (Proc.devRef .tc main_arg4) := by
          show StableHlo.after hostOps2 (W3 m ρ c) (Proc.devRef .tc main_arg4) = _; after_results
    _ = W2 m ρ c (Proc.devRef .tc main_arg4) := W3_of_ne m ρ c main_arg4 (by decide)
    _ = W1 m ρ c (Proc.devRef .tc main_arg4) := (W2_arr m ρ c 3).trans (((dat0 (V1 m ρ) c).arrAt_in 3 rfl _).trans (A_eq0 (V1 m ρ) c 3))
    _ = m ((c.tc : Thread nD τ).loc main_arg4) := by
          show StableHlo.after hostOps0 (W0 m ρ c) (Proc.devRef .tc main_arg4) = _; after_results

theorem W4_arg5 (c : Dev nD) : W4 m ρ c (Proc.devRef .tc main_arg5) = m ((c.tc : Thread nD τ).loc main_arg5) :=
  calc W4 m ρ c (Proc.devRef .tc main_arg5)
    _ = W3 m ρ c (Proc.devRef .tc main_arg5) := by
          show StableHlo.after hostOps2 (W3 m ρ c) (Proc.devRef .tc main_arg5) = _; after_results
    _ = W2 m ρ c (Proc.devRef .tc main_arg5) := W3_of_ne m ρ c main_arg5 (by decide)
    _ = W1 m ρ c (Proc.devRef .tc main_arg5) := W2_of_ne m ρ c main_arg5 (by decide)
    _ = m ((c.tc : Thread nD τ).loc main_arg5) := by
          show StableHlo.after hostOps0 (W0 m ρ c) (Proc.devRef .tc main_arg5) = _; after_results

theorem W4_arg6 (c : Dev nD) : W4 m ρ c (Proc.devRef .tc main_arg6) = m ((c.tc : Thread nD τ).loc main_arg6) :=
  calc W4 m ρ c (Proc.devRef .tc main_arg6)
    _ = W3 m ρ c (Proc.devRef .tc main_arg6) := by
          show StableHlo.after hostOps2 (W3 m ρ c) (Proc.devRef .tc main_arg6) = _; after_results
    _ = W2 m ρ c (Proc.devRef .tc main_arg6) := (W3_arr m ρ c 1).trans (((dat1 (V2 m ρ) c).arrAt_in 1 rfl _).trans (A_eq1 (V2 m ρ) c 1))
    _ = W1 m ρ c (Proc.devRef .tc main_arg6) := W2_of_ne m ρ c main_arg6 (by decide)
    _ = m ((c.tc : Thread nD τ).loc main_arg6) := by
          show StableHlo.after hostOps0 (W0 m ρ c) (Proc.devRef .tc main_arg6) = _; after_results

theorem W4_arg7 (c : Dev nD) : W4 m ρ c (Proc.devRef .tc main_arg7) = m ((c.tc : Thread nD τ).loc main_arg7) :=
  calc W4 m ρ c (Proc.devRef .tc main_arg7)
    _ = W3 m ρ c (Proc.devRef .tc main_arg7) := by
          show StableHlo.after hostOps2 (W3 m ρ c) (Proc.devRef .tc main_arg7) = _; after_results
    _ = W2 m ρ c (Proc.devRef .tc main_arg7) := (W3_arr m ρ c 2).trans (((dat1 (V2 m ρ) c).arrAt_in 2 rfl _).trans (A_eq1 (V2 m ρ) c 2))
    _ = W1 m ρ c (Proc.devRef .tc main_arg7) := W2_of_ne m ρ c main_arg7 (by decide)
    _ = m ((c.tc : Thread nD τ).loc main_arg7) := by
          show StableHlo.after hostOps0 (W0 m ρ c) (Proc.devRef .tc main_arg7) = _; after_results

/-- The frame: every weakly fair execution terminates, nothing faulting, with the eight arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W4_arg0 m ρ c),
      (h c _ (mem_uc main_arg1 (by decide))).trans (W4_arg1 m ρ c),
      (h c _ (mem_uc main_arg2 (by decide))).trans (W4_arg2 m ρ c),
      (h c _ (mem_uc main_arg3 (by decide))).trans (W4_arg3 m ρ c),
      (h c _ (mem_uc main_arg4 (by decide))).trans (W4_arg4 m ρ c),
      (h c _ (mem_uc main_arg5 (by decide))).trans (W4_arg5 m ρ c),
      (h c _ (mem_uc main_arg6 (by decide))).trans (W4_arg6 m ρ c),
      (h c _ (mem_uc main_arg7 (by decide))).trans (W4_arg7 m ρ c)⟩)
    (run m ρ)

end Cert.KernelIdeal.Hand

end
-- ==== Proof.IBlocks.lean ====
/-
  The windows' blocks as parts of their arrays. Each kernel's index maps are decided once over its grid; then a block read at
  an index is the array read at the block's offset plus the index (a block's coordinate is always block index × block size
  + the coordinate inside the block), the body's stores simplify to their payloads (each goes through the whole-block
  rectangle at zero offsets), and the output blocks written back cover their arrays: the first kernel's sixteen column
  blocks of 256, the second kernel's two row blocks of 128 (written back at the last point of each row block).
-/
import proofs.«111199_j25512105738297_2_alg».proof.Proof.IRegion0
import proofs.«111199_j25512105738297_2_alg».proof.Proof.IRegion1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl

/-! ## The stores are their payloads -/

theorem out0_5_eq (x0 x1 x2 x3 : Vec F S256x4096 .f32) (x4 : Vec F S256 .f32) : out0_5 x0 x1 x2 x3 x4 = k0_pay1 x0 x1 x2 x3 x4 := by
  unfold out0_5
  rw [View.canon_unit_zero hz2]
  simp only [View.ld_unit_zero (S := S256x4096) hz2, View.ld_unit_zero (S := S256) hz1]

theorem out1_3_eq (z : Vec F S128x4096 .f32) : out1_3 z = k1_pay2 z := by
  unfold out1_3
  rw [View.canon_unit_zero hz2, View.ld_unit_zero (S := S128x4096) hz2]

theorem slab1_eq (x0 : Vec F S128x4096 .f32) (x1 : Vec F S512x4096 .f32) (x2 : Vec F S512 .f32) : slab1 x0 x1 x2 = k1_pay1 x0 x1 x2 := by
  unfold slab1
  simp only [View.ld_unit_zero (S := S128x4096) hz2, View.ld_unit_zero (S := S512x4096) hz2, View.ld_unit_zero (S := S512) hz1]

/-! ## The index maps, decided over the grids -/

theorem idx0_0 : ∀ t : Fin cfg0.N, win0_0.index t 0 = 0 ∧ win0_0.index t 1 = 0 :=
  (by decide +kernel : ∀ t : Fin grid0.N, win0_0.index t 0 = 0 ∧ win0_0.index t 1 = 0)
theorem idx0_1 : ∀ t : Fin cfg0.N, win0_1.index t 0 = 0 ∧ win0_1.index t 1 = 0 :=
  (by decide +kernel : ∀ t : Fin grid0.N, win0_1.index t 0 = 0 ∧ win0_1.index t 1 = 0)
theorem idx0_2 : ∀ t : Fin cfg0.N, win0_2.index t 0 = t.val ∧ win0_2.index t 1 = 0 :=
  (by decide +kernel : ∀ t : Fin grid0.N, win0_2.index t 0 = t.val ∧ win0_2.index t 1 = 0)
theorem idx0_3 : ∀ t : Fin cfg0.N, win0_3.index t 0 = t.val ∧ win0_3.index t 1 = 0 :=
  (by decide +kernel : ∀ t : Fin grid0.N, win0_3.index t 0 = t.val ∧ win0_3.index t 1 = 0)
theorem idx0_4 : ∀ t : Fin cfg0.N, win0_4.index t 0 = t.val :=
  (by decide +kernel : ∀ t : Fin grid0.N, win0_4.index t 0 = t.val)
theorem idx0_5 : ∀ t : Fin cfg0.N, win0_5.index t 0 = 0 ∧ win0_5.index t 1 = t.val :=
  (by decide +kernel : ∀ t : Fin grid0.N, win0_5.index t 0 = 0 ∧ win0_5.index t 1 = t.val)
theorem idx1_0 : ∀ t : Fin cfg1.N, win1_0.index t 0 = t.val / 8 ∧ win1_0.index t 1 = 0 :=
  (by decide +kernel : ∀ t : Fin grid1.N, win1_0.index t 0 = t.val / 8 ∧ win1_0.index t 1 = 0)
theorem idx1_1 : ∀ t : Fin cfg1.N, win1_1.index t 0 = t.val % 8 ∧ win1_1.index t 1 = 0 :=
  (by decide +kernel : ∀ t : Fin grid1.N, win1_1.index t 0 = t.val % 8 ∧ win1_1.index t 1 = 0)
theorem idx1_2 : ∀ t : Fin cfg1.N, win1_2.index t 0 = t.val % 8 :=
  (by decide +kernel : ∀ t : Fin grid1.N, win1_2.index t 0 = t.val % 8)
theorem idx1_3 : ∀ t : Fin cfg1.N, win1_3.index t 0 = t.val / 8 ∧ win1_3.index t 1 = 0 :=
  (by decide +kernel : ∀ t : Fin grid1.N, win1_3.index t 0 = t.val / 8 ∧ win1_3.index t 1 = 0)
theorem xsize0_5 : ∀ t : Fin cfg0.N, win0_5.xsize (grid0.coords t) 0 = 256 ∧ win0_5.xsize (grid0.coords t) 1 = 256 :=
  (by decide +kernel : ∀ t : Fin grid0.N, win0_5.xsize (grid0.coords t) 0 = 256 ∧ win0_5.xsize (grid0.coords t) 1 = 256)
theorem xsize1_3 : ∀ t : Fin cfg1.N, win1_3.xsize (grid1.coords t) 0 = 128 ∧ win1_3.xsize (grid1.coords t) 1 = 4096 :=
  (by decide +kernel : ∀ t : Fin grid1.N, win1_3.xsize (grid1.coords t) 0 = 128 ∧ win1_3.xsize (grid1.coords t) 1 = 4096)

/-! ## The input blocks read at an index -/

variable (V : (c : Dev nD) → (b : Ref sig .tc) → Buf (Elt F) ((c : Thread nD τ).loc b))

theorem iblk0_0_apply (c : Dev nD) (t : Fin cfg0.N) (p : Fin 256) (k : Fin 4096) :
    (iblk0 V c 0 t : Vec F S256x4096 .f32) (ix2 p k) = (V c main_arg0 : S256x4096.Idx → Elt F .f32) (ix2 p k) := by
  unfold iblk0
  rw [View.read_apply]
  show V c main_arg0 _ = V c main_arg0 _
  congr 1
  funext a
  apply Fin.ext
  match a with
  | ⟨0, _⟩ => show win0_0.index t 0 * 256 + 1 * p.val = p.val; rw [(idx0_0 t).1]; omega
  | ⟨1, _⟩ => show win0_0.index t 1 * 4096 + 1 * k.val = k.val; rw [(idx0_0 t).2]; omega

theorem iblk0_1_apply (c : Dev nD) (t : Fin cfg0.N) (p : Fin 256) (k : Fin 4096) :
    (iblk0 V c 1 t : Vec F S256x4096 .f32) (ix2 p k) = (V c main_v0 : S256x4096.Idx → Elt F .f32) (ix2 p k) := by
  unfold iblk0
  rw [View.read_apply]
  show V c main_v0 _ = V c main_v0 _
  congr 1
  funext a
  apply Fin.ext
  match a with
  | ⟨0, _⟩ => show win0_1.index t 0 * 256 + 1 * p.val = p.val; rw [(idx0_1 t).1]; omega
  | ⟨1, _⟩ => show win0_1.index t 1 * 4096 + 1 * k.val = k.val; rw [(idx0_1 t).2]; omega

theorem iblk0_2_apply (c : Dev nD) (t : Fin cfg0.N) (q : Fin 256) (k r : Fin 4096) (hr : r.val = 256 * t.val + q.val) :
    (iblk0 V c 2 t : Vec F S256x4096 .f32) (ix2 q k) = (V c main_arg2 : S4096x4096.Idx → Elt F .f32) (ix2 r k) := by
  unfold iblk0
  rw [View.read_apply]
  show V c main_arg2 _ = V c main_arg2 _
  congr 1
  funext a
  apply Fin.ext
  match a with
  | ⟨0, _⟩ => show win0_2.index t 0 * 256 + 1 * q.val = r.val; rw [(idx0_2 t).1, hr]; omega
  | ⟨1, _⟩ => show win0_2.index t 1 * 4096 + 1 * k.val = k.val; rw [(idx0_2 t).2]; omega

theorem iblk0_3_apply (c : Dev nD) (t : Fin cfg0.N) (q : Fin 256) (k r : Fin 4096) (hr : r.val = 256 * t.val + q.val) :
    (iblk0 V c 3 t : Vec F S256x4096 .f32) (ix2 q k) = (V c main_arg4 : S4096x4096.Idx → Elt F .f32) (ix2 r k) := by
  unfold iblk0
  rw [View.read_apply]
  show V c main_arg4 _ = V c main_arg4 _
  congr 1
  funext a
  apply Fin.ext
  match a with
  | ⟨0, _⟩ => show win0_3.index t 0 * 256 + 1 * q.val = r.val; rw [(idx0_3 t).1, hr]; omega
  | ⟨1, _⟩ => show win0_3.index t 1 * 4096 + 1 * k.val = k.val; rw [(idx0_3 t).2]; omega

theorem iblk0_4_apply (c : Dev nD) (t : Fin cfg0.N) (q : Fin 256) (r : Fin 4096) (hr : r.val = 256 * t.val + q.val) :
    (iblk0 V c 4 t : Vec F S256 .f32) (ix1 q) = (V c main_v1 : S4096.Idx → Elt F .f32) (ix1 r) := by
  unfold iblk0
  rw [View.read_apply]
  show V c main_v1 _ = V c main_v1 _
  congr 1
  funext a
  apply Fin.ext
  match a with
  | ⟨0, _⟩ => show win0_4.index t 0 * 256 + 1 * q.val = r.val; rw [idx0_4 t, hr]; omega

theorem iblk1_0_apply (c : Dev nD) (s : Fin cfg1.N) (p : Fin 128) (k : Fin 4096) (r : Fin 256) (hr : r.val = 128 * (s.val / 8) + p.val) :
    (iblk1 V c 0 s : Vec F S128x4096 .f32) (ix2 p k) = (V c main_v2 : S256x4096.Idx → Elt F .f32) (ix2 r k) := by
  unfold iblk1
  rw [View.read_apply]
  show V c main_v2 _ = V c main_v2 _
  congr 1
  funext a
  apply Fin.ext
  match a with
  | ⟨0, _⟩ => show win1_0.index s 0 * 128 + 1 * p.val = r.val; rw [(idx1_0 s).1, hr]; omega
  | ⟨1, _⟩ => show win1_0.index s 1 * 4096 + 1 * k.val = k.val; rw [(idx1_0 s).2]; omega

theorem iblk1_1_apply (c : Dev nD) (s : Fin cfg1.N) (q : Fin 512) (k r : Fin 4096) (hr : r.val = 512 * (s.val % 8) + q.val) :
    (iblk1 V c 1 s : Vec F S512x4096 .f32) (ix2 q k) = (V c main_arg6 : S4096x4096.Idx → Elt F .f32) (ix2 r k) := by
  unfold iblk1
  rw [View.read_apply]
  show V c main_arg6 _ = V c main_arg6 _
  congr 1
  funext a
  apply Fin.ext
  match a with
  | ⟨0, _⟩ => show win1_1.index s 0 * 512 + 1 * q.val = r.val; rw [(idx1_1 s).1, hr]; omega
  | ⟨1, _⟩ => show win1_1.index s 1 * 4096 + 1 * k.val = k.val; rw [(idx1_1 s).2]; omega

theorem iblk1_2_apply (c : Dev nD) (s : Fin cfg1.N) (q : Fin 512) (r : Fin 4096) (hr : r.val = 512 * (s.val % 8) + q.val) :
    (iblk1 V c 2 s : Vec F S512 .f32) (ix1 q) = (V c main_arg7 : S4096.Idx → Elt F .f32) (ix1 r) := by
  unfold iblk1
  rw [View.read_apply]
  show V c main_arg7 _ = V c main_arg7 _
  congr 1
  funext a
  apply Fin.ext
  match a with
  | ⟨0, _⟩ => show win1_2.index s 0 * 512 + 1 * q.val = r.val; rw [idx1_2 s, hr]; omega

/-! ## The output blocks of an array read at an index -/

theorem oblk0_apply (c : Dev nD) (G : Buf (Elt F) ((c : Thread nD τ).loc main_v2)) (t : Fin cfg0.N) (p q : Fin 256) (r : Fin 4096)
    (hr : r.val = 256 * t.val + q.val) :
    (((cfg0.win 5).blk t).view.read (Elt F) G : Vec F S256x256 .f32) (ix2 p q) = (G : S256x4096.Idx → Elt F .f32) (ix2 p r) := by
  rw [View.read_apply]
  show G _ = G _
  congr 1
  funext a
  apply Fin.ext
  match a with
  | ⟨0, _⟩ => show win0_5.index t 0 * 256 + 1 * p.val = p.val; rw [(idx0_5 t).1]; omega
  | ⟨1, _⟩ => show win0_5.index t 1 * 256 + 1 * q.val = r.val; rw [(idx0_5 t).2, hr]; omega

theorem oblk1_apply (c : Dev nD) (G : Buf (Elt F) ((c : Thread nD τ).loc main_v3)) (t : Fin cfg1.N) (p : Fin 128) (q : Fin 4096) (r : Fin 256)
    (hr : r.val = 128 * (t.val / 8) + p.val) :
    (((cfg1.win 3).blk t).view.read (Elt F) G : Vec F S128x4096 .f32) (ix2 p q) = (G : S256x4096.Idx → Elt F .f32) (ix2 r q) := by
  rw [View.read_apply]
  show G _ = G _
  congr 1
  funext a
  apply Fin.ext
  match a with
  | ⟨0, _⟩ => show win1_3.index t 0 * 128 + 1 * p.val = r.val; rw [(idx1_3 t).1, hr]; omega
  | ⟨1, _⟩ => show win1_3.index t 1 * 4096 + 1 * q.val = q.val; rw [(idx1_3 t).2]; omega

/-! ## The written-back blocks cover the arrays -/

theorem cover0 (c : Dev nD) (i : ((cfg0.win 5).arr.view.loc (c.tc : Thread nD τ)).2.ty.Idx) :
    ∃ t : Fin cfg0.N, (cfg0.win 5).flush t = true ∧ i ∈ ((cfg0.win 5).blk t).view.set := by
  have h0 : (i 0 : Nat) < 256 := (i 0).isLt
  have h1 : (i 1 : Nat) < 4096 := (i 1).isLt
  have hN : (i 1 : Nat) / 256 < cfg0.N := lt_of_lt_of_eq (by omega) N_0.symm
  refine ⟨⟨(i 1 : Nat) / 256, hN⟩, flush0_5 _, ?_⟩
  show i ∈ ((View.whole main_v2).slice (win0_5.rect ⟨(i 1 : Nat) / 256, hN⟩)).set
  rw [View.set_slice_whole, Rect.mem_set_unit]
  intro a
  match a with
  | ⟨0, _⟩ =>
    show win0_5.index ⟨(i 1 : Nat) / 256, hN⟩ 0 * 256 ≤ (i 0 : Nat) ∧ (i 0 : Nat) < win0_5.index ⟨(i 1 : Nat) / 256, hN⟩ 0 * 256 + win0_5.xsize (grid0.coords ⟨(i 1 : Nat) / 256, hN⟩) 0
    rw [(idx0_5 _).1, (xsize0_5 _).1]; omega
  | ⟨1, _⟩ =>
    show win0_5.index ⟨(i 1 : Nat) / 256, hN⟩ 1 * 256 ≤ (i 1 : Nat) ∧ (i 1 : Nat) < win0_5.index ⟨(i 1 : Nat) / 256, hN⟩ 1 * 256 + win0_5.xsize (grid0.coords ⟨(i 1 : Nat) / 256, hN⟩) 1
    rw [(idx0_5 _).2, (xsize0_5 _).2]
    show (i 1 : Nat) / 256 * 256 ≤ (i 1 : Nat) ∧ (i 1 : Nat) < (i 1 : Nat) / 256 * 256 + 256
    omega

theorem cover1 (c : Dev nD) (i : ((cfg1.win 3).arr.view.loc (c.tc : Thread nD τ)).2.ty.Idx) :
    ∃ t : Fin cfg1.N, (cfg1.win 3).flush t = true ∧ i ∈ ((cfg1.win 3).blk t).view.set := by
  have h0 : (i 0 : Nat) < 256 := (i 0).isLt
  have h1 : (i 1 : Nat) < 4096 := (i 1).isLt
  have hN : 8 * ((i 0 : Nat) / 128) + 7 < 16 := by omega
  refine ⟨pt1 (8 * ((i 0 : Nat) / 128) + 7) hN, (flush1_3 _).mpr (by show (8 * ((i 0 : Nat) / 128) + 7) % 8 = 7; omega), ?_⟩
  show i ∈ ((View.whole main_v3).slice (win1_3.rect (pt1 (8 * ((i 0 : Nat) / 128) + 7) hN))).set
  rw [View.set_slice_whole, Rect.mem_set_unit]
  intro a
  match a with
  | ⟨0, _⟩ =>
    show win1_3.index (pt1 (8 * ((i 0 : Nat) / 128) + 7) hN) 0 * 128 ≤ (i 0 : Nat) ∧ (i 0 : Nat) < win1_3.index (pt1 (8 * ((i 0 : Nat) / 128) + 7) hN) 0 * 128 + win1_3.xsize (grid1.coords (pt1 (8 * ((i 0 : Nat) / 128) + 7) hN)) 0
    rw [(idx1_3 _).1, (xsize1_3 _).1]
    show (8 * ((i 0 : Nat) / 128) + 7) / 8 * 128 ≤ (i 0 : Nat) ∧ (i 0 : Nat) < (8 * ((i 0 : Nat) / 128) + 7) / 8 * 128 + 128
    omega
  | ⟨1, _⟩ =>
    show win1_3.index (pt1 (8 * ((i 0 : Nat) / 128) + 7) hN) 1 * 4096 ≤ (i 1 : Nat) ∧ (i 1 : Nat) < win1_3.index (pt1 (8 * ((i 0 : Nat) / 128) + 7) hN) 1 * 4096 + win1_3.xsize (grid1.coords (pt1 (8 * ((i 0 : Nat) / 128) + 7) hN)) 1
    rw [(idx1_3 _).2, (xsize1_3 _).2]; omega

end Cert.KernelIdeal.Hand

end
-- ==== Proof.Payload.lean ====
/-
  The kernels' stored values read at one index, at the ideal float instance (extended reals).
  Each payload of the two kernel bodies is one pure function of the vectors the body loads. Here each is read at an
  index given by its two coordinates: the format changes and the same-shape casts are the identity, the pointwise
  operations read through, a row vector broadcast over the rows reads its entry at the column, a column of row
  statistics broadcast over the columns reads its entry at the row, a matrix product contracting the second axis of
  both operands is the sum over that axis of the products, and a reduction along the second axis is the sum, or the
  fold of max from the bottom element, over that axis.
-/
import proofs.«111199_j25512105738297_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Payload

open Idealize.ShloMosaic Idealize.ShloMosaic.ValueIdx Cert.KernelIdeal Cert.KernelIdeal.Gen

/-! ## Two more pointwise operations at an index, at the ideal values (definitional) -/

/-- A hyperbolic tangent at an index is the extended reals' of the element … -/
theorem tanh_apply {s : Shape} {φ : FTy} (a : FVec Ideal s φ) (i : s.Idx) : tanh a i = Ideal.tanh (a i) := rfl
/-- … and an exponential the extended reals' exponential of the element. -/
theorem exp_apply {s : Shape} {φ : FTy} (a : FVec Ideal s φ) (i : s.Idx) : exp a i = Ideal.exp (a i) := rfl

/-! ## The second kernel's matrix product at an index -/

/-- On the left operand's kept axis the operand index reads the output's row. -/
theorem lhs1_0 (i : S128x512.Idx) (c : dot_S128x4096_S512x4096_S128x512_1_1_0_0_n_n.contr.Idx) :
    (dot_S128x4096_S512x4096_S128x512_1_1_0_0_n_n.lhsIdx i c 0).val = (i 0).val := by
  unfold DotDims.lhsIdx
  rw [dif_neg (show ¬(0 : Fin S128x4096.rank) ∈ dot_S128x4096_S512x4096_S128x512_1_1_0_0_n_n.lhsBatch by decide),
    dif_pos (show (0 : Fin S128x4096.rank) ∈ dot_S128x4096_S512x4096_S128x512_1_1_0_0_n_n.lhsNonContracting by decide)]
  rfl
/-- On the left operand's contracted axis it reads the contraction coordinate. -/
theorem lhs1_1 (i : S128x512.Idx) (c : dot_S128x4096_S512x4096_S128x512_1_1_0_0_n_n.contr.Idx) :
    (dot_S128x4096_S512x4096_S128x512_1_1_0_0_n_n.lhsIdx i c 1).val = (c ⟨0, by decide⟩).val :=
  dot_S128x4096_S512x4096_S128x512_1_1_0_0_n_n.lhsIdx_val_of_single rfl i c
/-- On the right operand's kept axis the operand index reads the output's column. -/
theorem rhs1_0 (i : S128x512.Idx) (c : dot_S128x4096_S512x4096_S128x512_1_1_0_0_n_n.contr.Idx) :
    (dot_S128x4096_S512x4096_S128x512_1_1_0_0_n_n.rhsIdx i c 0).val = (i 1).val := by
  unfold DotDims.rhsIdx
  rw [dif_neg (show ¬(0 : Fin S512x4096.rank) ∈ dot_S128x4096_S512x4096_S128x512_1_1_0_0_n_n.rhsBatch by decide),
    dif_pos (show (0 : Fin S512x4096.rank) ∈ dot_S128x4096_S512x4096_S128x512_1_1_0_0_n_n.rhsNonContracting by decide)]
  rfl
/-- On the right operand's contracted axis it reads the contraction coordinate. -/
theorem rhs1_1 (i : S128x512.Idx) (c : dot_S128x4096_S512x4096_S128x512_1_1_0_0_n_n.contr.Idx) :
    (dot_S128x4096_S512x4096_S128x512_1_1_0_0_n_n.rhsIdx i c 1).val = (c ⟨0, by decide⟩).val :=
  dot_S128x4096_S512x4096_S128x512_1_1_0_0_n_n.rhsIdx_val_of_single rfl i c

/-- A [128, 4096] by [512, 4096] product contracting the second axis of both operands, accumulated into zero: at
    (p, q) the sum over k of lhs (p, k) * rhs (q, k). -/
theorem matmul1_apply {φ₁ φ₂ : FTy} (lhs : FVec Ideal S128x4096 φ₁) (rhs : FVec Ideal S512x4096 φ₂) (p : Fin 128) (q : Fin 512) :
    matmul dot_S128x4096_S512x4096_S128x512_1_1_0_0_n_n none lhs rhs (constant (F := Ideal) S128x512 .f32 0x00000000#32) (ix2 p q)
      = ∑ k : Fin 4096, lhs (ix2 p k) * rhs (ix2 q k) := by
  refine (Ideal.matmul_constant_zero_apply dot_S128x4096_S512x4096_S128x512_1_1_0_0_n_n none lhs rhs (ix2 p q)).trans ?_
  rw [← Equiv.sum_comp (contrEquiv1 dot_S128x4096_S512x4096_S128x512_1_1_0_0_n_n 4096 rfl rfl).symm]
  refine Finset.sum_congr rfl fun k _ => ?_
  have hk := contrEquiv1_symm_val dot_S128x4096_S512x4096_S128x512_1_1_0_0_n_n 4096 rfl rfl k
  have el : dot_S128x4096_S512x4096_S128x512_1_1_0_0_n_n.lhsIdx (ix2 p q) ((contrEquiv1 dot_S128x4096_S512x4096_S128x512_1_1_0_0_n_n 4096 rfl rfl).symm k) = ix2 p k :=
    funext fun a => Fin.ext (by
      match a with
      | ⟨0, _⟩ => exact lhs1_0 _ _
      | ⟨1, _⟩ => exact (lhs1_1 _ _).trans hk)
  have er : dot_S128x4096_S512x4096_S128x512_1_1_0_0_n_n.rhsIdx (ix2 p q) ((contrEquiv1 dot_S128x4096_S512x4096_S128x512_1_1_0_0_n_n 4096 rfl rfl).symm k) = ix2 q k :=
    funext fun a => Fin.ext (by
      match a with
      | ⟨0, _⟩ => exact rhs1_0 _ _
      | ⟨1, _⟩ => exact (rhs1_1 _ _).trans hk)
  rw [el, er]

/-! ## The second kernel's first payload: the linear layer's block -/

/-- The linear layer's block at (p, q): the row p of the activations against the row q of the weights, plus the bias
    at q (the format changes are the identity at the ideal values). -/
theorem pay1_apply (v0 : Vec Ideal S128x4096 .f32) (v3 : Vec Ideal S512x4096 .f32) (v6 : Vec Ideal S512 .f32) (p : Fin 128) (q : Fin 512) :
    k1_pay1 (F := Ideal) v0 v3 v6 (ix2 p q) = (∑ k : Fin 4096, v0 (ix2 p k) * v3 (ix2 q k)) + v6 (ix1 q) := by
  unfold k1_pay1
  simp only [shapeCast_self]
  refine (addf_apply _ _ (ix2 p q)).trans (congrArg₂ (· + ·) ?_ ?_)
  · exact matmul1_apply _ _ p q
  · exact (broadcastTo_1b_ab_apply _ _ p q).trans (shapeCast_a_1a_apply _ _ 0 q)
/-! ## The first kernel's matrix products at an index -/

/-- On the left operand's kept axis the operand index reads the output's row. -/
theorem lhs0_0 (i : S256x256.Idx) (c : dot_S256x4096_S256x4096_S256x256_1_1_0_0_n_n.contr.Idx) :
    (dot_S256x4096_S256x4096_S256x256_1_1_0_0_n_n.lhsIdx i c 0).val = (i 0).val := by
  unfold DotDims.lhsIdx
  rw [dif_neg (show ¬(0 : Fin S256x4096.rank) ∈ dot_S256x4096_S256x4096_S256x256_1_1_0_0_n_n.lhsBatch by decide),
    dif_pos (show (0 : Fin S256x4096.rank) ∈ dot_S256x4096_S256x4096_S256x256_1_1_0_0_n_n.lhsNonContracting by decide)]
  rfl
/-- On the left operand's contracted axis it reads the contraction coordinate. -/
theorem lhs0_1 (i : S256x256.Idx) (c : dot_S256x4096_S256x4096_S256x256_1_1_0_0_n_n.contr.Idx) :
    (dot_S256x4096_S256x4096_S256x256_1_1_0_0_n_n.lhsIdx i c 1).val = (c ⟨0, by decide⟩).val :=
  dot_S256x4096_S256x4096_S256x256_1_1_0_0_n_n.lhsIdx_val_of_single rfl i c
/-- On the right operand's kept axis the operand index reads the output's column. -/
theorem rhs0_0 (i : S256x256.Idx) (c : dot_S256x4096_S256x4096_S256x256_1_1_0_0_n_n.contr.Idx) :
    (dot_S256x4096_S256x4096_S256x256_1_1_0_0_n_n.rhsIdx i c 0).val = (i 1).val := by
  unfold DotDims.rhsIdx
  rw [dif_neg (show ¬(0 : Fin S256x4096.rank) ∈ dot_S256x4096_S256x4096_S256x256_1_1_0_0_n_n.rhsBatch by decide),
    dif_pos (show (0 : Fin S256x4096.rank) ∈ dot_S256x4096_S256x4096_S256x256_1_1_0_0_n_n.rhsNonContracting by decide)]
  rfl
/-- On the right operand's contracted axis it reads the contraction coordinate. -/
theorem rhs0_1 (i : S256x256.Idx) (c : dot_S256x4096_S256x4096_S256x256_1_1_0_0_n_n.contr.Idx) :
    (dot_S256x4096_S256x4096_S256x256_1_1_0_0_n_n.rhsIdx i c 1).val = (c ⟨0, by decide⟩).val :=
  dot_S256x4096_S256x4096_S256x256_1_1_0_0_n_n.rhsIdx_val_of_single rfl i c

/-- A [256, 4096] by [256, 4096] product contracting the second axis of both operands, accumulated into zero: at
    (p, q) the sum over k of lhs (p, k) * rhs (q, k). -/
theorem matmul0_apply {φ₁ φ₂ : FTy} (lhs : FVec Ideal S256x4096 φ₁) (rhs : FVec Ideal S256x4096 φ₂) (p : Fin 256) (q : Fin 256) :
    matmul dot_S256x4096_S256x4096_S256x256_1_1_0_0_n_n none lhs rhs (constant (F := Ideal) S256x256 .f32 0x00000000#32) (ix2 p q)
      = ∑ k : Fin 4096, lhs (ix2 p k) * rhs (ix2 q k) := by
  refine (Ideal.matmul_constant_zero_apply dot_S256x4096_S256x4096_S256x256_1_1_0_0_n_n none lhs rhs (ix2 p q)).trans ?_
  rw [← Equiv.sum_comp (contrEquiv1 dot_S256x4096_S256x4096_S256x256_1_1_0_0_n_n 4096 rfl rfl).symm]
  refine Finset.sum_congr rfl fun k _ => ?_
  have hk := contrEquiv1_symm_val dot_S256x4096_S256x4096_S256x256_1_1_0_0_n_n 4096 rfl rfl k
  have el : dot_S256x4096_S256x4096_S256x256_1_1_0_0_n_n.lhsIdx (ix2 p q) ((contrEquiv1 dot_S256x4096_S256x4096_S256x256_1_1_0_0_n_n 4096 rfl rfl).symm k) = ix2 p k :=
    funext fun a => Fin.ext (by
      match a with
      | ⟨0, _⟩ => exact lhs0_0 _ _
      | ⟨1, _⟩ => exact (lhs0_1 _ _).trans hk)
  have er : dot_S256x4096_S256x4096_S256x256_1_1_0_0_n_n.rhsIdx (ix2 p q) ((contrEquiv1 dot_S256x4096_S256x4096_S256x256_1_1_0_0_n_n 4096 rfl rfl).symm k) = ix2 q k :=
    funext fun a => Fin.ext (by
      match a with
      | ⟨0, _⟩ => exact rhs0_0 _ _
      | ⟨1, _⟩ => exact (rhs0_1 _ _).trans hk)
  rw [el, er]

/-! ## The first kernel's payload: the recurrent cell's step -/

/-- The cell's step at (p, q): tanh of the two products' sum plus the bias at q. -/
theorem pay0_apply (v0 v2 v5 v7 : Vec Ideal S256x4096 .f32) (v12 : Vec Ideal S256 .f32) (p q : Fin 256) :
    k0_pay1 (F := Ideal) v0 v2 v5 v7 v12 (ix2 p q)
      = Ideal.tanh (((∑ k : Fin 4096, v0 (ix2 p k) * v5 (ix2 q k)) + (∑ k : Fin 4096, v2 (ix2 p k) * v7 (ix2 q k))) + v12 (ix1 q)) := by
  unfold k0_pay1
  simp only [shapeCast_self]
  refine (tanh_apply _ (ix2 p q)).trans (congrArg Ideal.tanh ?_)
  refine (addf_apply _ _ (ix2 p q)).trans (congrArg₂ (· + ·) ?_ ?_)
  · refine (addf_apply _ _ (ix2 p q)).trans (congrArg₂ (· + ·) ?_ ?_)
    · exact matmul0_apply _ _ p q
    · exact matmul0_apply _ _ p q
  · exact (broadcastTo_1b_ab_apply _ _ p q).trans (shapeCast_a_1a_apply _ _ 0 q)
/-! ## The column forms of the layout operations, read at an index -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows of a matrix, read at a row -/

/-- The f32 pattern of minus infinity denotes the bottom extended real. -/
theorem ofBits_negInf_f32 : Ideal.ofBits .f32 0xFF800000#32 = ⊥ := by simp [Ideal.ofBits, Ideal.ieee]

/-- The source index over row `p` with `o` inserted on the reduced axis is `(p, o)`. -/
theorem lift_row {a b : ℕ} (h : (⟨2, ![a, b]⟩ : Shape).Reduces [1] ⟨1, ![a]⟩) (p : Fin a) (o : Fin b) :
    h.lift (ix1 p) o = ix2 p o :=
  funext fun c => Fin.ext (by
    match c with
    | ⟨0, _⟩ => rfl
    | ⟨1, _⟩ => rfl)

/-- A maximum along axis 1 from minus infinity, at row `p`: the fold of `max` from `⊥` over the row's entries. -/
theorem rowMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (⊥ : EReal) (fun o => src (ix2 p o)) := by
  refine (Ideal.multiReduction_maximumf_single src _ h hφ hacc (ix1 p)).trans ?_
  show (Finset.univ : Finset (Fin b)).fold max (Ideal.ofBits .f32 0xFF800000#32) (fun o => src (h.lift (ix1 p) o)) = _
  rw [ofBits_negInf_f32]
  exact congrArg (fun f => (Finset.univ : Finset (Fin b)).fold max (⊥ : EReal) f) (funext fun o => congrArg src (lift_row h p o))

/-- A sum along axis 1 from zero, at row `p`: the sum of the row's entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ o : Fin b, src (ix2 p o) := by
  refine (Ideal.multiReduction_add_single src _ h hφ hacc (ix1 p)).trans ?_
  show ∑ o : Fin b, src (h.lift (ix1 p) o) = _
  exact Finset.sum_congr rfl fun o _ => congrArg src (lift_row h p o)

/-! ## The second kernel's second payload: the row softmax -/

/-- The softmax's shifted exponential at (p, o): the exponential of the entry minus its row's maximum. -/
theorem expShift_apply (v : FVec Ideal S128x4096 .f32) (p : Fin 128) (o : Fin 4096) :
    exp (subf v (broadcastTo S128x4096 (shapeCast S128x1
        (multiReduction (F := Ideal) .maximumf [1] S128 v 0xFF800000#32 reduces_S128x4096_S128 (.inl rfl) rfl)
        shapeCasts_S128_S128x1) broadcasts_S128x1_S128x4096)) (ix2 p o)
      = Ideal.exp (v (ix2 p o) - (Finset.univ : Finset (Fin 4096)).fold max (⊥ : EReal) (fun o => v (ix2 p o))) :=
  (exp_apply _ (ix2 p o)).trans (congrArg Ideal.exp ((subf_apply _ _ (ix2 p o)).trans (congrArg (v (ix2 p o) - ·)
    ((broadcastTo_a1_ab_apply _ _ p o).trans ((shapeCast_a_a1_apply _ _ p 0).trans (rowMax_apply v _ _ _ p))))))

/-- The softmax at (p, q): the shifted exponential there over the sum of the row's shifted exponentials. -/
theorem pay2_apply (v19 : Vec Ideal S128x4096 .f32) (p : Fin 128) (q : Fin 4096) :
    k1_pay2 (F := Ideal) v19 (ix2 p q)
      = Ideal.div (Ideal.exp (v19 (ix2 p q) - (Finset.univ : Finset (Fin 4096)).fold max (⊥ : EReal) (fun o => v19 (ix2 p o))))
        (∑ o' : Fin 4096, Ideal.exp (v19 (ix2 p o') - (Finset.univ : Finset (Fin 4096)).fold max (⊥ : EReal) (fun o => v19 (ix2 p o)))) := by
  unfold k1_pay2
  refine (divf_apply _ _ (ix2 p q)).trans (congrArg₂ Ideal.div (expShift_apply v19 p q) ?_)
  refine (broadcastTo_a1_ab_apply _ _ p q).trans ((shapeCast_a_a1_apply _ _ p 0).trans ((rowSum_apply _ _ _ _ p).trans ?_))
  exact Finset.sum_congr rfl fun o _ => expShift_apply v19 p o

end Cert.Payload

end
-- ==== Proof.Spec.lean ====
/-
  The mathematics both programs compute, as functions of the eight argument arrays over the extended reals.

  One step of an Elman cell followed by a linear layer and a row softmax:
    hidden b n  = tanh ((∑ k, x b k · w_ih n k  +  ∑ k, h0 0 b k · w_hh n k) + (b_ih n + b_hh n))
    logit  b o  = (∑ k, hidden b k · w_lin o k) + b_lin o
    prob   b o  = exp (logit b o − M b) / ∑ o', exp (logit b o' − M b),   M b = the maximum of row b of logit
  (the maximum as the fold of `max` from −∞ over the row, the quotient the extended reals' `Ideal.div`).
  The results are the two arrays with a leading axis of extent 1 put in front.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨2, ![256, 4096]⟩
abbrev SH0 : Shape := ⟨3, ![1, 256, 4096]⟩
abbrev SW : Shape := ⟨2, ![4096, 4096]⟩
abbrev SB : Shape := ⟨1, ![4096]⟩

variable (x : FVec Ideal SX .f32) (h0 : FVec Ideal SH0 .f32) (wih : FVec Ideal SW .f32) (bih : FVec Ideal SB .f32)
  (whh : FVec Ideal SW .f32) (bhh : FVec Ideal SB .f32) (wlin : FVec Ideal SW .f32) (blin : FVec Ideal SB .f32)

/-- The new hidden state at batch row `b`, hidden unit `n`. -/
def hiddenAt (b : Fin 256) (n : Fin 4096) : EReal :=
  Ideal.tanh (((∑ k : Fin 4096, x (ix2 b k) * wih (ix2 n k)) + (∑ k : Fin 4096, h0 (ix3 (0 : Fin 1) b k) * whh (ix2 n k)))
    + (bih (ix1 n) + bhh (ix1 n)))

/-- The logit at batch row `b`, class `o`. -/
def logitAt (b : Fin 256) (o : Fin 4096) : EReal :=
  (∑ k : Fin 4096, hiddenAt x h0 wih bih whh bhh b k * wlin (ix2 o k)) + blin (ix1 o)

/-- The maximum of row `b` of the logits: the fold of `max` from −∞. -/
def rowMax (b : Fin 256) : EReal :=
  (Finset.univ : Finset (Fin 4096)).fold max (⊥ : EReal) (fun o => logitAt x h0 wih bih whh bhh wlin blin b o)

/-- The shifted exponential at `(b, o)`. -/
def expAt (b : Fin 256) (o : Fin 4096) : EReal :=
  Ideal.exp (logitAt x h0 wih bih whh bhh wlin blin b o - rowMax x h0 wih bih whh bhh wlin blin b)

/-- The softmax probability at `(b, o)`. -/
def probAt (b : Fin 256) (o : Fin 4096) : EReal :=
  Ideal.div (expAt x h0 wih bih whh bhh wlin blin b o) (∑ o' : Fin 4096, expAt x h0 wih bih whh bhh wlin blin b o')

/-- The hidden state as a [256, 4096] array. -/
def hidden : FVec Ideal SX .f32 := fun j => hiddenAt x h0 wih bih whh bhh (j 0) (j 1)

/-- The probabilities as a [256, 4096] array. -/
def prob : FVec Ideal SX .f32 := fun j => probAt x h0 wih bih whh bhh wlin blin (j 0) (j 1)

/-- First result: the probabilities with a leading unit axis. -/
def result0 : FVec Ideal SH0 .f32 := fun j => probAt x h0 wih bih whh bhh wlin blin (j 1) (j 2)

/-- Second result: the hidden state with a leading unit axis. -/
def result1 : FVec Ideal SH0 .f32 := fun j => hiddenAt x h0 wih bih whh bhh (j 1) (j 2)

end Cert.Spec

end
-- ==== Proof.IValue.lean ====
/-
  What the idealized kernel program computes. The first kernel's sixteen written-back column blocks make the hidden-state array
  the specification's: block n at (p, q) is tanh of the two inner products of row p of x and of h with rows 256·n + q of the two
  weight matrices plus the summed bias — the specification's entry (p, 256·n + q). The second kernel's scratch, complete at the
  last point of a row block, holds that row block's logits — slab o at column q is the inner product of a hidden row with row
  512·o + q of the last weight matrix plus its bias — so the block written back there is the specification's softmax of those
  rows. The host puts a leading unit axis in front of both. All at the ideal instance, where a float is an extended real.
-/
import proofs.«111199_j25512105738297_2_alg».proof.Proof.IRun
import proofs.«111199_j25512105738297_2_alg».proof.Proof.IArgs
import proofs.«111199_j25512105738297_2_alg».proof.Proof.IBlocks
import proofs.«111199_j25512105738297_2_alg».proof.Proof.Payload
import proofs.«111199_j25512105738297_2_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-! ## The eight arguments as launched -/

abbrev aX (c : Dev nD) : FVec Ideal Cert.Spec.SX .f32 := m ((c.tc : Thread nD τ).loc main_arg0)
abbrev aH0 (c : Dev nD) : FVec Ideal Cert.Spec.SH0 .f32 := m ((c.tc : Thread nD τ).loc main_arg1)
abbrev aWih (c : Dev nD) : FVec Ideal Cert.Spec.SW .f32 := m ((c.tc : Thread nD τ).loc main_arg2)
abbrev aBih (c : Dev nD) : FVec Ideal Cert.Spec.SB .f32 := m ((c.tc : Thread nD τ).loc main_arg3)
abbrev aWhh (c : Dev nD) : FVec Ideal Cert.Spec.SW .f32 := m ((c.tc : Thread nD τ).loc main_arg4)
abbrev aBhh (c : Dev nD) : FVec Ideal Cert.Spec.SB .f32 := m ((c.tc : Thread nD τ).loc main_arg5)
abbrev aWlin (c : Dev nD) : FVec Ideal Cert.Spec.SW .f32 := m ((c.tc : Thread nD τ).loc main_arg6)
abbrev aBlin (c : Dev nD) : FVec Ideal Cert.Spec.SB .f32 := m ((c.tc : Thread nD τ).loc main_arg7)

/-! ## The buffers the first kernel finds: the arguments, h0 without its leading axis, the summed bias -/

theorem V1_arg0 (c : Dev nD) : V1 m ρ c main_arg0 = aX m c := by
  show StableHlo.after hostOps0 (W0 m ρ c) (Proc.devRef .tc main_arg0) = _; after_results
theorem V1_arg2 (c : Dev nD) : V1 m ρ c main_arg2 = aWih m c := by
  show StableHlo.after hostOps0 (W0 m ρ c) (Proc.devRef .tc main_arg2) = _; after_results
theorem V1_arg4 (c : Dev nD) : V1 m ρ c main_arg4 = aWhh m c := by
  show StableHlo.after hostOps0 (W0 m ρ c) (Proc.devRef .tc main_arg4) = _; after_results
theorem V1_arg6 (c : Dev nD) : V1 m ρ c main_arg6 = aWlin m c := by
  show StableHlo.after hostOps0 (W0 m ρ c) (Proc.devRef .tc main_arg6) = _; after_results
theorem V1_arg7 (c : Dev nD) : V1 m ρ c main_arg7 = aBlin m c := by
  show StableHlo.after hostOps0 (W0 m ρ c) (Proc.devRef .tc main_arg7) = _; after_results

/-- The summed bias. -/
theorem V1_v1 (c : Dev nD) (r : Fin 4096) :
    (V1 m ρ c main_v1 : S4096.Idx → EReal) (ix1 r) = aBih m c (ix1 r) + aBhh m c (ix1 r) := by
  show StableHlo.after hostOps0 (W0 m ρ c) (Proc.devRef .tc main_v1) (ix1 r) = _
  after_results
  rfl

/-- h0 with its leading unit axis dropped. -/
theorem V1_v0 (c : Dev nD) (p : Fin 256) (k : Fin 4096) :
    (V1 m ρ c main_v0 : S256x4096.Idx → EReal) (ix2 p k) = aH0 m c (ix3 (0 : Fin 1) p k) := by
  show StableHlo.after hostOps0 (W0 m ρ c) (Proc.devRef .tc main_v0) (ix2 p k) = _
  after_results
  show shapeCast S256x4096 (aH0 m c) shapeCasts_S1x256x4096_S256x4096 (ix2 p k) = _
  exact shapeCast_apply (aH0 m c) shapeCasts_S1x256x4096_S256x4096 (ix2 p k) (ix3 (0 : Fin 1) p k)
    (by rewrite [Shape.rowMajor_val_three, Shape.rowMajor_val_two]
        show (0 * 256 + p.val) * 4096 + k.val = p.val * 4096 + k.val
        omega)

/-! ## The hidden state: the first kernel's output array -/

/-- What point `t` writes back is block `t` of the specification's hidden state. -/
theorem flushed0_eq (c : Dev nD) (t : Fin cfg0.N) :
    (dat0 (V1 m ρ) c).flushed 5 t = ((cfg0.win 5).blk t).view.read (Elt Ideal) (Cert.Spec.hidden (aX m c) (aH0 m c) (aWih m c) (aBih m c) (aWhh m c) (aBhh m c)) := by
  have ht : t.val < 16 := lt_of_lt_of_eq t.isLt N_0
  show (dat0 (V1 m ρ) c).after 5 t = _
  rw [after0_5, out0_5_eq]
  funext y
  obtain ⟨p, q, rfl⟩ : ∃ (p q : Fin 256), y = ix2 p q := ⟨y 0, y 1, eq_ix2 y⟩
  have hr : (⟨256 * t.val + q.val, by omega⟩ : Fin 4096).val = 256 * t.val + q.val := rfl
  rw [Cert.Payload.pay0_apply, oblk0_apply c _ t p q ⟨256 * t.val + q.val, by omega⟩ hr]
  have e0 : ∀ k : Fin 4096, (iblk0 (V1 m ρ) c 0 t : Vec Ideal S256x4096 .f32) (ix2 p k) = aX m c (ix2 p k) :=
    fun k => (iblk0_0_apply (V1 m ρ) c t p k).trans (congrFun (V1_arg0 m ρ c) _)
  have e1 : ∀ k : Fin 4096, (iblk0 (V1 m ρ) c 1 t : Vec Ideal S256x4096 .f32) (ix2 p k) = aH0 m c (ix3 (0 : Fin 1) p k) :=
    fun k => (iblk0_1_apply (V1 m ρ) c t p k).trans (V1_v0 m ρ c p k)
  have e2 : ∀ k : Fin 4096, (iblk0 (V1 m ρ) c 2 t : Vec Ideal S256x4096 .f32) (ix2 q k) = aWih m c (ix2 ⟨256 * t.val + q.val, by omega⟩ k) :=
    fun k => (iblk0_2_apply (V1 m ρ) c t q k ⟨256 * t.val + q.val, by omega⟩ hr).trans (congrFun (V1_arg2 m ρ c) _)
  have e3 : ∀ k : Fin 4096, (iblk0 (V1 m ρ) c 3 t : Vec Ideal S256x4096 .f32) (ix2 q k) = aWhh m c (ix2 ⟨256 * t.val + q.val, by omega⟩ k) :=
    fun k => (iblk0_3_apply (V1 m ρ) c t q k ⟨256 * t.val + q.val, by omega⟩ hr).trans (congrFun (V1_arg4 m ρ c) _)
  have e4 : (iblk0 (V1 m ρ) c 4 t : Vec Ideal S256 .f32) (ix1 q) = aBih m c (ix1 ⟨256 * t.val + q.val, by omega⟩) + aBhh m c (ix1 ⟨256 * t.val + q.val, by omega⟩) :=
    (iblk0_4_apply (V1 m ρ) c t q ⟨256 * t.val + q.val, by omega⟩ hr).trans (V1_v1 m ρ c _)
  simp only [e0, e1, e2, e3, e4]
  rfl

/-- The hidden-state array after the first kernel is the specification's. -/
theorem hidden_final (c : Dev nD) : (dat0 (V1 m ρ) c).arrAt 5 cfg0.N = Cert.Spec.hidden (aX m c) (aH0 m c) (aWih m c) (aBih m c) (aWhh m c) (aBhh m c) :=
  (dat0 (V1 m ρ) c).arrAt_eq_of_cover 5 (Cert.Spec.hidden (aX m c) (aH0 m c) (aWih m c) (aBih m c) (aWhh m c) (aBhh m c)) (fun t _ => flushed0_eq m ρ c t) (cover0 c)

/-! ## The buffers the second kernel finds -/

theorem V2_v2 (c : Dev nD) : V2 m ρ c main_v2 = Cert.Spec.hidden (aX m c) (aH0 m c) (aWih m c) (aBih m c) (aWhh m c) (aBhh m c) :=
  (W2_arr m ρ c 5).trans (hidden_final m ρ c)
theorem V2_arg6 (c : Dev nD) : V2 m ρ c main_arg6 = aWlin m c :=
  (W2_of_ne m ρ c main_arg6 (by decide)).trans (V1_arg6 m ρ c)
theorem V2_arg7 (c : Dev nD) : V2 m ρ c main_arg7 = aBlin m c :=
  (W2_of_ne m ρ c main_arg7 (by decide)).trans (V1_arg7 m ρ c)

/-! ## The logits in the scratch, and the probabilities: the second kernel's output array -/

/-- Row block `mb`'s completed scratch holds the specification's logits of rows 128·mb …. -/
theorem logits_eq (c : Dev nD) (mb : ℕ) (hmb : mb < 2) (p : Fin 128) (o : Fin 4096) (b : Fin 256) (hb : b.val = 128 * mb + p.val) :
    logitsBlk (V2 m ρ) c mb (ix2 p o) = Cert.Spec.logitAt (aX m c) (aH0 m c) (aWih m c) (aBih m c) (aWhh m c) (aBhh m c) (aWlin m c) (aBlin m c) b o := by
  have ho : o.val < 4096 := o.isLt
  have hs : (pt1 (8 * (mb % 2) + o.val / 512) (by omega)).val = 8 * (mb % 2) + ((ix2 p o : S128x4096.Idx) 1).val / 512 := rfl
  rw [logitsBlk_apply (V2 m ρ) c mb (ix2 p o) (pt1 (8 * (mb % 2) + o.val / 512) (by omega))
    (ix2 (n0 := 128) (n1 := 512) p ⟨o.val % 512, Nat.mod_lt _ (by decide)⟩) hs rfl rfl]
  unfold slabAt
  rw [slab1_eq, Cert.Payload.pay1_apply]
  have hsv : (pt1 (8 * (mb % 2) + o.val / 512) (by omega)).val = 8 * (mb % 2) + o.val / 512 := rfl
  have e0 : ∀ k : Fin 4096, (iblk1 (V2 m ρ) c 0 (pt1 (8 * (mb % 2) + o.val / 512) (by omega)) : Vec Ideal S128x4096 .f32) (ix2 p k)
      = Cert.Spec.hiddenAt (aX m c) (aH0 m c) (aWih m c) (aBih m c) (aWhh m c) (aBhh m c) b k :=
    fun k => (iblk1_0_apply (V2 m ρ) c _ p k b (by rw [hsv, hb]; omega)).trans (congrFun (V2_v2 m ρ c) _)
  have e1 : ∀ k : Fin 4096, (iblk1 (V2 m ρ) c 1 (pt1 (8 * (mb % 2) + o.val / 512) (by omega)) : Vec Ideal S512x4096 .f32) (ix2 (⟨o.val % 512, Nat.mod_lt _ (by decide)⟩ : Fin 512) k)
      = aWlin m c (ix2 o k) :=
    fun k => (iblk1_1_apply (V2 m ρ) c _ ⟨o.val % 512, Nat.mod_lt _ (by decide)⟩ k o (by rw [hsv]; show o.val = 512 * ((8 * (mb % 2) + o.val / 512) % 8) + o.val % 512; omega)).trans (congrFun (V2_arg6 m ρ c) _)
  have e2 : (iblk1 (V2 m ρ) c 2 (pt1 (8 * (mb % 2) + o.val / 512) (by omega)) : Vec Ideal S512 .f32) (ix1 (⟨o.val % 512, Nat.mod_lt _ (by decide)⟩ : Fin 512))
      = aBlin m c (ix1 o) :=
    (iblk1_2_apply (V2 m ρ) c _ ⟨o.val % 512, Nat.mod_lt _ (by decide)⟩ o (by rw [hsv]; show o.val = 512 * ((8 * (mb % 2) + o.val / 512) % 8) + o.val % 512; omega)).trans (congrFun (V2_arg7 m ρ c) _)
  simp only [e0, e1, e2]
  rfl

/-- What the last point of a row block writes back is that block of the specification's probabilities. -/
theorem flushed1_eq (c : Dev nD) (t : Fin cfg1.N) (hf : (cfg1.win 3).flush t = true) :
    (dat1 (V2 m ρ) c).flushed 3 t = ((cfg1.win 3).blk t).view.read (Elt Ideal) (Cert.Spec.prob (aX m c) (aH0 m c) (aWih m c) (aBih m c) (aWhh m c) (aBhh m c) (aWlin m c) (aBlin m c)) := by
  have ht : t.val < 16 := lt_of_lt_of_eq t.isLt N_1
  show (dat1 (V2 m ρ) c).after 3 t = _
  rw [after1_3, out1_3_eq]
  funext y
  obtain ⟨p, q, rfl⟩ : ∃ (p : Fin 128) (q : Fin 4096), y = ix2 p q := ⟨y 0, y 1, eq_ix2 y⟩
  have hp : p.val < 128 := p.isLt
  have hr : (⟨128 * (t.val / 8) + p.val, by omega⟩ : Fin 256).val = 128 * (t.val / 8) + p.val := rfl
  rw [Cert.Payload.pay2_apply, oblk1_apply c _ t p q ⟨128 * (t.val / 8) + p.val, by omega⟩ hr]
  have hz : ∀ o : Fin 4096, logitsBlk (V2 m ρ) c (t.val / 8) (ix2 p o)
      = Cert.Spec.logitAt (aX m c) (aH0 m c) (aWih m c) (aBih m c) (aWhh m c) (aBhh m c) (aWlin m c) (aBlin m c) ⟨128 * (t.val / 8) + p.val, by omega⟩ o :=
    fun o => logits_eq m ρ c (t.val / 8) (by omega) p o _ hr
  simp only [hz]
  rfl

/-- The probabilities' array after the second kernel is the specification's. -/
theorem prob_final (c : Dev nD) : (dat1 (V2 m ρ) c).arrAt 3 cfg1.N = Cert.Spec.prob (aX m c) (aH0 m c) (aWih m c) (aBih m c) (aWhh m c) (aBhh m c) (aWlin m c) (aBlin m c) :=
  (dat1 (V2 m ρ) c).arrAt_eq_of_cover 3 (Cert.Spec.prob (aX m c) (aH0 m c) (aWih m c) (aBih m c) (aWhh m c) (aBhh m c) (aWlin m c) (aBlin m c)) (flushed1_eq m ρ c) (cover1 c)

/-! ## What the program ends with -/

theorem V3_v3 (c : Dev nD) : V3 m ρ c main_v3 = Cert.Spec.prob (aX m c) (aH0 m c) (aWih m c) (aBih m c) (aWhh m c) (aBhh m c) (aWlin m c) (aBlin m c) :=
  (W3_arr m ρ c 3).trans (prob_final m ρ c)
theorem V3_v2 (c : Dev nD) : V3 m ρ c main_v2 = Cert.Spec.hidden (aX m c) (aH0 m c) (aWih m c) (aBih m c) (aWhh m c) (aBhh m c) :=
  (W3_arr m ρ c 0).trans (((dat1 (V2 m ρ) c).arrAt_in 0 rfl _).trans ((A_eq1 (V2 m ρ) c 0).trans (V2_v2 m ρ c)))

/-- The first result: the probabilities behind a leading unit axis. -/
theorem W4_v4_apply (c : Dev nD) (a : Fin 1) (b : Fin 256) (o : Fin 4096) :
    (W4 m ρ c (Proc.devRef .tc main_v4) : S1x256x4096.Idx → EReal) (ix3 a b o) = Cert.Spec.probAt (aX m c) (aH0 m c) (aWih m c) (aBih m c) (aWhh m c) (aBhh m c) (aWlin m c) (aBlin m c) b o := by
  show StableHlo.after hostOps2 (W3 m ρ c) (Proc.devRef .tc main_v4) (ix3 a b o) = _
  after_results
  show broadcastInDim S1x256x4096 ![1, 2] bcast_S256x4096_S1x256x4096_1_2 (V3 m ρ c main_v3) (ix3 a b o) = _
  rw [V3_v3]
  exact broadcastInDim_apply _ bcast_S256x4096_S1x256x4096_1_2 (Cert.Spec.prob (aX m c) (aH0 m c) (aWih m c) (aBih m c) (aWhh m c) (aBhh m c) (aWlin m c) (aBlin m c)) (ix3 a b o) (ix2 b o) (fun d => match d with
    | ⟨0, _⟩ => by show b.val = if (256 : Nat) = 1 then 0 else b.val; rw [if_neg (by decide)]
    | ⟨1, _⟩ => by show o.val = if (4096 : Nat) = 1 then 0 else o.val; rw [if_neg (by decide)])

/-- The second result: the hidden state behind a leading unit axis. -/
theorem W4_v5_apply (c : Dev nD) (a : Fin 1) (b : Fin 256) (n : Fin 4096) :
    (W4 m ρ c (Proc.devRef .tc main_v5) : S1x256x4096.Idx → EReal) (ix3 a b n) = Cert.Spec.hiddenAt (aX m c) (aH0 m c) (aWih m c) (aBih m c) (aWhh m c) (aBhh m c) b n := by
  show StableHlo.after hostOps2 (W3 m ρ c) (Proc.devRef .tc main_v5) (ix3 a b n) = _
  after_results
  show broadcastInDim S1x256x4096 ![1, 2] bcast_S256x4096_S1x256x4096_1_2 (V3 m ρ c main_v2) (ix3 a b n) = _
  rw [V3_v2]
  exact broadcastInDim_apply _ bcast_S256x4096_S1x256x4096_1_2 (Cert.Spec.hidden (aX m c) (aH0 m c) (aWih m c) (aBih m c) (aWhh m c) (aBhh m c)) (ix3 a b n) (ix2 b n) (fun d => match d with
    | ⟨0, _⟩ => by show b.val = if (256 : Nat) = 1 then 0 else b.val; rw [if_neg (by decide)]
    | ⟨1, _⟩ => by show n.val = if (4096 : Nat) = 1 then 0 else n.val; rw [if_neg (by decide)])

theorem W4_v4 (c : Dev nD) : W4 m ρ c (Proc.devRef .tc main_v4) = Cert.Spec.result0 (aX m c) (aH0 m c) (aWih m c) (aBih m c) (aWhh m c) (aBhh m c) (aWlin m c) (aBlin m c) := by
  funext j
  obtain ⟨a, b, o, rfl⟩ : ∃ (a : Fin 1) (b : Fin 256) (o : Fin 4096), j = ix3 a b o := ⟨j 0, j 1, j 2, eq_ix3 j⟩
  exact W4_v4_apply m ρ c a b o

theorem W4_v5 (c : Dev nD) : W4 m ρ c (Proc.devRef .tc main_v5) = Cert.Spec.result1 (aX m c) (aH0 m c) (aWih m c) (aBih m c) (aWhh m c) (aBhh m c) := by
  funext j
  obtain ⟨a, b, n, rfl⟩ : ∃ (a : Fin 1) (b : Fin 256) (n : Fin 4096), j = ix3 a b n := ⟨j 0, j 1, j 2, eq_ix3 j⟩
  exact W4_v5_apply m ρ c a b n

/-- Every weakly fair execution of the idealized kernel program terminates, nothing faulting, with its two results the
    specification's arrays of the arguments' launch contents and the arguments unchanged. -/
theorem run_value : θ_run defs (onTc (τ := τ) (main (F := Ideal))) ⟨m, fun _ => 0, ρ⟩ (fun r => ∀ c : Dev nD,
      r.2.mem ((c.tc : Thread nD τ).loc main_v4) = Cert.Spec.result0 (aX m c) (aH0 m c) (aWih m c) (aBih m c) (aWhh m c) (aBhh m c) (aWlin m c) (aBlin m c)
      ∧ r.2.mem ((c.tc : Thread nD τ).loc main_v5) = Cert.Spec.result1 (aX m c) (aH0 m c) (aWih m c) (aBih m c) (aWhh m c) (aBhh m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_v4 (by decide))).trans (W4_v4 m ρ c),
      (h c _ (mem_uc main_v5 (by decide))).trans (W4_v5 m ρ c),
      (h c _ (mem_uc main_arg0 (by decide))).trans (W4_arg0 m ρ c),
      (h c _ (mem_uc main_arg1 (by decide))).trans (W4_arg1 m ρ c),
      (h c _ (mem_uc main_arg2 (by decide))).trans (W4_arg2 m ρ c),
      (h c _ (mem_uc main_arg3 (by decide))).trans (W4_arg3 m ρ c),
      (h c _ (mem_uc main_arg4 (by decide))).trans (W4_arg4 m ρ c),
      (h c _ (mem_uc main_arg5 (by decide))).trans (W4_arg5 m ρ c),
      (h c _ (mem_uc main_arg6 (by decide))).trans (W4_arg6 m ρ c),
      (h c _ (mem_uc main_arg7 (by decide))).trans (W4_arg7 m ρ c)⟩)
    (run m ρ)

end Cert.KernelIdeal.Hand

end
-- ==== Proof.RefSide.lean ====
/-
  The reference program's two results, read index by index, are the specification's arrays.
-/
import proofs.«111199_j25512105738297_2_alg».proof.Proof.Gen.ReferenceIdeal.Run
import proofs.«111199_j25512105738297_2_alg».proof.Proof.Gen.ReferenceIdeal.Read
import proofs.«111199_j25512105738297_2_alg».proof.Proof.Spec

noncomputable section

namespace Cert.RefSide

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

/-! ## Index arithmetic: the operand indices of each operation, at a result index given by its coordinates -/

/-- Row `b` of the left operand of a product of matrices, at contraction coordinate `k`. -/
theorem lidx_v2 (b : Fin 256) (n k : Fin 4096) : lidx_main_v2 (ix2 b n) k = ix2 b k := by
  funext a; match a with | ⟨0, _⟩ => rfl | ⟨1, _⟩ => rfl
theorem lidx_v7 (b : Fin 256) (n k : Fin 4096) : lidx_main_v7 (ix2 b n) k = ix2 b k := by
  funext a; match a with | ⟨0, _⟩ => rfl | ⟨1, _⟩ => rfl
theorem lidx_v14 (b : Fin 256) (n k : Fin 4096) : lidx_main_v14 (ix2 b n) k = ix2 b k := by
  funext a; match a with | ⟨0, _⟩ => rfl | ⟨1, _⟩ => rfl

/-- The transposed weight at (k, n) is the weight at (n, k). -/
theorem ridx_v2 (b : Fin 256) (n k : Fin 4096) : idx_main_v1 (ridx_main_v2 (ix2 b n) k) = ix2 n k := by
  funext a; match a with | ⟨0, _⟩ => rfl | ⟨1, _⟩ => rfl
theorem ridx_v7 (b : Fin 256) (n k : Fin 4096) : idx_main_v6 (ridx_main_v7 (ix2 b n) k) = ix2 n k := by
  funext a; match a with | ⟨0, _⟩ => rfl | ⟨1, _⟩ => rfl
theorem ridx_v14 (b : Fin 256) (n k : Fin 4096) : idx_main_v13 (ridx_main_v14 (ix2 b n) k) = ix2 n k := by
  funext a; match a with | ⟨0, _⟩ => rfl | ⟨1, _⟩ => rfl

/-- Dropping the leading unit axis: entry (b, k) of the reshaped array is entry (0, b, k). -/
theorem idx_v0 (b : Fin 256) (k : Fin 4096) : idx_main_v0 (ix2 b k) = ix3 (0 : Fin 1) b k := by
  funext a
  match a with
  | ⟨0, _⟩ => rfl
  | ⟨1, _⟩ => exact Fin.ext (by have := b.isLt; have := k.isLt; show (b.val * 4096 + k.val) / 4096 % 256 = b.val; omega)
  | ⟨2, _⟩ => exact Fin.ext (by have := b.isLt; have := k.isLt; show (b.val * 4096 + k.val) % 4096 = k.val; omega)

/-- A bias broadcast along the rows reads entry `n` at (b, n). -/
theorem idx_v4 (b : Fin 256) (n : Fin 4096) : idx_main_v3 (idx_main_v4 (ix2 b n)) = ix1 n := by
  funext a; match a with | ⟨0, _⟩ => rfl
theorem idx_v10 (b : Fin 256) (n : Fin 4096) : idx_main_v9 (idx_main_v10 (ix2 b n)) = ix1 n := by
  funext a; match a with | ⟨0, _⟩ => rfl
theorem idx_v16 (b : Fin 256) (n : Fin 4096) : idx_main_v15 (idx_main_v16 (ix2 b n)) = ix1 n := by
  funext a; match a with | ⟨0, _⟩ => rfl

/-! ## The hidden state -/

/-- The hidden pre-activation's four summands, regrouped: `((A + p) + B) + q = (A + B) + (p + q)` in any commutative
    additive monoid. -/
theorem regroup (A B p q : EReal) : A + p + B + q = A + B + (p + q) := by
  rw [add_assoc A p B, add_comm p B, ← add_assoc A B p, add_assoc (A + B) p q]

/-- The reference's hidden state at (b, n) is the specification's. -/
theorem hidden_apply (x0 : (⟨S256x4096, .f32⟩ : BufTy).Contents (Elt Ideal)) (x1 : (⟨S1x256x4096, .f32⟩ : BufTy).Contents (Elt Ideal)) (x2 : (⟨S4096x4096, .f32⟩ : BufTy).Contents (Elt Ideal)) (x3 : (⟨S4096, .f32⟩ : BufTy).Contents (Elt Ideal)) (x4 : (⟨S4096x4096, .f32⟩ : BufTy).Contents (Elt Ideal)) (x5 : (⟨S4096, .f32⟩ : BufTy).Contents (Elt Ideal)) (b : Fin 256) (n : Fin 4096) :
    val_main_v12 (F := Ideal) x0 x1 x2 x3 x4 x5 (ix2 b n) = Cert.Spec.hiddenAt x0 x1 x2 x3 x4 x5 b n := by
  rw [val_main_v12_apply, val_main_v11_apply, val_main_v8_apply, val_main_v5_apply, val_main_v2_apply, val_main_v4_apply,
    val_main_v3_apply, val_main_v7_apply, val_main_v10_apply, val_main_v9_apply]
  simp only [val_main_v1_apply, val_main_v0_apply, val_main_v6_apply, lidx_v2, lidx_v7, ridx_v2, ridx_v7, idx_v0, idx_v4, idx_v10,
    Ideal.hostUnary_tanh_def, Ideal.addf_def]
  unfold Cert.Spec.hiddenAt
  exact congrArg Ideal.tanh (regroup _ _ _ _)

/-! ## The logits -/

/-- The reference's logit at (b, o) is the specification's. -/
theorem logit_apply (x0 : (⟨S256x4096, .f32⟩ : BufTy).Contents (Elt Ideal)) (x1 : (⟨S1x256x4096, .f32⟩ : BufTy).Contents (Elt Ideal)) (x2 : (⟨S4096x4096, .f32⟩ : BufTy).Contents (Elt Ideal)) (x3 : (⟨S4096, .f32⟩ : BufTy).Contents (Elt Ideal)) (x4 : (⟨S4096x4096, .f32⟩ : BufTy).Contents (Elt Ideal)) (x5 : (⟨S4096, .f32⟩ : BufTy).Contents (Elt Ideal)) (x6 : (⟨S4096x4096, .f32⟩ : BufTy).Contents (Elt Ideal)) (x7 : (⟨S4096, .f32⟩ : BufTy).Contents (Elt Ideal)) (b : Fin 256) (o : Fin 4096) :
    val_main_v17 (F := Ideal) x0 x1 x2 x3 x4 x5 x6 x7 (ix2 b o) = Cert.Spec.logitAt x0 x1 x2 x3 x4 x5 x6 x7 b o := by
  rw [val_main_v17_apply, val_main_v14_apply, val_main_v16_apply, val_main_v15_apply]
  simp only [val_main_v13_apply, lidx_v14, ridx_v14, idx_v16, hidden_apply, Ideal.addf_def]
  rfl

/-! ## The row maximum -/

/-- The bit pattern of the reduction's initial value denotes −∞. -/
theorem ofBits_neg_inf : Ideal.ofBits .f32 0xFF800000#32 = (⊥ : EReal) := by simp [Ideal.ofBits, Ideal.ieee]

/-- The [256, 4096] arrays reduce over their second axis to [256] arrays. -/
theorem reduces_d1 : S256x4096.Reduces [1] S256 := by decide

/-- Row index `b` with column `k` inserted is (b, k). -/
theorem lift_d1 (b : Fin 256) (k : Fin (S256x4096.size 1)) :
    reduces_d1.lift (ix1 b) k = ix2 b (⟨k.val, k.isLt⟩ : Fin 4096) := by
  funext c; apply Fin.ext
  fin_cases c <;> rfl

/-- From −∞ the host's reduce with a maximum body over the columns, at row `b`, is the fold of `max` from ⊥ over the row. -/
theorem hostRowMax (y : (⟨S256x4096, .f32⟩ : BufTy).Contents (Elt Ideal)) (b : Fin 256) :
    Host.reduce (α := Ideal .f32) FloatOps.maximumf y (val_main_cst (F := Ideal)) reducesTo_S256x4096_S256_d1 h_S_ (ix1 b)
      = (Finset.univ : Finset (Fin 4096)).fold max (⊥ : EReal) (fun o => y (ix2 b o)) := by
  refine (Host.reduce_eq_fold_single (α := Ideal .f32) (s := S256x4096) (t := S256) (a := 1) FloatOps.maximumf y
    (val_main_cst (F := Ideal)) reducesTo_S256x4096_S256_d1 reduces_d1 h_S_ (ix1 b)).trans ?_
  have hf : (y ∘ reduces_d1.lift (ix1 b)) = fun k : Fin 4096 => y (ix2 b k) := funext fun k => congrArg y (lift_d1 b k)
  have hb : val_main_cst (F := Ideal) (Shape.Idx.first h_S_) = (⊥ : EReal) := ofBits_neg_inf
  exact congrArg₂ (fun i f => Finset.fold max i f (Finset.univ : Finset (Fin 4096))) hb hf

/-- The reference's reduced maximum at row `b` is the specification's row maximum. -/
theorem v18_apply (x0 : (⟨S256x4096, .f32⟩ : BufTy).Contents (Elt Ideal)) (x1 : (⟨S1x256x4096, .f32⟩ : BufTy).Contents (Elt Ideal)) (x2 : (⟨S4096x4096, .f32⟩ : BufTy).Contents (Elt Ideal)) (x3 : (⟨S4096, .f32⟩ : BufTy).Contents (Elt Ideal)) (x4 : (⟨S4096x4096, .f32⟩ : BufTy).Contents (Elt Ideal)) (x5 : (⟨S4096, .f32⟩ : BufTy).Contents (Elt Ideal)) (x6 : (⟨S4096x4096, .f32⟩ : BufTy).Contents (Elt Ideal)) (x7 : (⟨S4096, .f32⟩ : BufTy).Contents (Elt Ideal)) (b : Fin 256) :
    val_main_v18 (F := Ideal) x0 x1 x2 x3 x4 x5 x6 x7 (ix1 b) = Cert.Spec.rowMax x0 x1 x2 x3 x4 x5 x6 x7 b := by
  unfold val_main_v18
  refine (hostRowMax _ b).trans ?_
  unfold Cert.Spec.rowMax
  exact congrArg (fun f => Finset.fold max (⊥ : EReal) f (Finset.univ : Finset (Fin 4096)))
    (funext fun o => logit_apply x0 x1 x2 x3 x4 x5 x6 x7 b o)

/-- The maximum with a broadcast −∞ changes nothing. -/
theorem rowMax_apply (x0 : (⟨S256x4096, .f32⟩ : BufTy).Contents (Elt Ideal)) (x1 : (⟨S1x256x4096, .f32⟩ : BufTy).Contents (Elt Ideal)) (x2 : (⟨S4096x4096, .f32⟩ : BufTy).Contents (Elt Ideal)) (x3 : (⟨S4096, .f32⟩ : BufTy).Contents (Elt Ideal)) (x4 : (⟨S4096x4096, .f32⟩ : BufTy).Contents (Elt Ideal)) (x5 : (⟨S4096, .f32⟩ : BufTy).Contents (Elt Ideal)) (x6 : (⟨S4096x4096, .f32⟩ : BufTy).Contents (Elt Ideal)) (x7 : (⟨S4096, .f32⟩ : BufTy).Contents (Elt Ideal)) (b : Fin 256) :
    val_main_v20 (F := Ideal) x0 x1 x2 x3 x4 x5 x6 x7 (ix1 b) = Cert.Spec.rowMax x0 x1 x2 x3 x4 x5 x6 x7 b := by
  rw [val_main_v20_apply, val_main_v19_apply, val_main_cst_0_apply, v18_apply]
  simp only [Ideal.ofBits_def, ofBits_neg_inf, Ideal.maximumf_def]
  exact max_eq_right bot_le

/-! ## The softmax -/

/-- A per-row value broadcast along the columns reads row `b` at (b, o). -/
theorem idx_v22 (b : Fin 256) (o : Fin 4096) : idx_main_v21 (idx_main_v22 (ix2 b o)) = ix1 b := by
  funext a; match a with | ⟨0, _⟩ => rfl
theorem idx_v27 (b : Fin 256) (o : Fin 4096) : idx_main_v26 (idx_main_v27 (ix2 b o)) = ix1 b := by
  funext a; match a with | ⟨0, _⟩ => rfl
/-- The sum over the columns of row `b` reads (b, k). -/
theorem idx_v25 (b : Fin 256) (k : Fin 4096) : idx_main_v25 (ix1 b) k = ix2 b k := by
  funext a; match a with | ⟨0, _⟩ => rfl | ⟨1, _⟩ => rfl
/-- Putting a unit axis in front: entry (a, b, o) of the result is entry (b, o). -/
theorem idx_v29 (a : Fin 1) (b : Fin 256) (o : Fin 4096) : idx_main_v29 (ix3 a b o) = ix2 b o := by
  funext d; match d with | ⟨0, _⟩ => rfl | ⟨1, _⟩ => rfl
theorem idx_v30 (a : Fin 1) (b : Fin 256) (o : Fin 4096) : idx_main_v30 (ix3 a b o) = ix2 b o := by
  funext d; match d with | ⟨0, _⟩ => rfl | ⟨1, _⟩ => rfl

/-- The reference's shifted exponential at (b, o) is the specification's. -/
theorem exp_apply (x0 : (⟨S256x4096, .f32⟩ : BufTy).Contents (Elt Ideal)) (x1 : (⟨S1x256x4096, .f32⟩ : BufTy).Contents (Elt Ideal)) (x2 : (⟨S4096x4096, .f32⟩ : BufTy).Contents (Elt Ideal)) (x3 : (⟨S4096, .f32⟩ : BufTy).Contents (Elt Ideal)) (x4 : (⟨S4096x4096, .f32⟩ : BufTy).Contents (Elt Ideal)) (x5 : (⟨S4096, .f32⟩ : BufTy).Contents (Elt Ideal)) (x6 : (⟨S4096x4096, .f32⟩ : BufTy).Contents (Elt Ideal)) (x7 : (⟨S4096, .f32⟩ : BufTy).Contents (Elt Ideal)) (b : Fin 256) (o : Fin 4096) :
    val_main_v24 (F := Ideal) x0 x1 x2 x3 x4 x5 x6 x7 (ix2 b o) = Cert.Spec.expAt x0 x1 x2 x3 x4 x5 x6 x7 b o := by
  rw [val_main_v24_apply, val_main_v23_apply, val_main_v22_apply, val_main_v21_apply, idx_v22, rowMax_apply, logit_apply]
  simp only [Ideal.hostUnary_exp_def, Ideal.subf_def]
  rfl

/-- The reference's row sum of exponentials at row `b` is the specification's denominator. -/
theorem sum_apply (x0 : (⟨S256x4096, .f32⟩ : BufTy).Contents (Elt Ideal)) (x1 : (⟨S1x256x4096, .f32⟩ : BufTy).Contents (Elt Ideal)) (x2 : (⟨S4096x4096, .f32⟩ : BufTy).Contents (Elt Ideal)) (x3 : (⟨S4096, .f32⟩ : BufTy).Contents (Elt Ideal)) (x4 : (⟨S4096x4096, .f32⟩ : BufTy).Contents (Elt Ideal)) (x5 : (⟨S4096, .f32⟩ : BufTy).Contents (Elt Ideal)) (x6 : (⟨S4096x4096, .f32⟩ : BufTy).Contents (Elt Ideal)) (x7 : (⟨S4096, .f32⟩ : BufTy).Contents (Elt Ideal)) (b : Fin 256) :
    val_main_v25 (F := Ideal) x0 x1 x2 x3 x4 x5 x6 x7 (ix1 b) = ∑ o' : Fin 4096, Cert.Spec.expAt x0 x1 x2 x3 x4 x5 x6 x7 b o' := by
  rw [val_main_v25_apply, val_main_cst_1_apply]
  simp only [idx_v25, exp_apply, Ideal.ofBits_def, Ideal.ofBits_zero_f32, zero_add]

/-- The reference's probability at (b, o) is the specification's. -/
theorem prob_apply (x0 : (⟨S256x4096, .f32⟩ : BufTy).Contents (Elt Ideal)) (x1 : (⟨S1x256x4096, .f32⟩ : BufTy).Contents (Elt Ideal)) (x2 : (⟨S4096x4096, .f32⟩ : BufTy).Contents (Elt Ideal)) (x3 : (⟨S4096, .f32⟩ : BufTy).Contents (Elt Ideal)) (x4 : (⟨S4096x4096, .f32⟩ : BufTy).Contents (Elt Ideal)) (x5 : (⟨S4096, .f32⟩ : BufTy).Contents (Elt Ideal)) (x6 : (⟨S4096x4096, .f32⟩ : BufTy).Contents (Elt Ideal)) (x7 : (⟨S4096, .f32⟩ : BufTy).Contents (Elt Ideal)) (b : Fin 256) (o : Fin 4096) :
    val_main_v28 (F := Ideal) x0 x1 x2 x3 x4 x5 x6 x7 (ix2 b o) = Cert.Spec.probAt x0 x1 x2 x3 x4 x5 x6 x7 b o := by
  rw [val_main_v28_apply, val_main_v27_apply, val_main_v26_apply, idx_v27, sum_apply, exp_apply]
  simp only [Ideal.hostDivf_def]
  rfl

/-! ## The two results -/

/-- The reference's first result is the specification's array of probabilities. -/
theorem result0_eq (x0 : (⟨S256x4096, .f32⟩ : BufTy).Contents (Elt Ideal)) (x1 : (⟨S1x256x4096, .f32⟩ : BufTy).Contents (Elt Ideal)) (x2 : (⟨S4096x4096, .f32⟩ : BufTy).Contents (Elt Ideal)) (x3 : (⟨S4096, .f32⟩ : BufTy).Contents (Elt Ideal)) (x4 : (⟨S4096x4096, .f32⟩ : BufTy).Contents (Elt Ideal)) (x5 : (⟨S4096, .f32⟩ : BufTy).Contents (Elt Ideal)) (x6 : (⟨S4096x4096, .f32⟩ : BufTy).Contents (Elt Ideal)) (x7 : (⟨S4096, .f32⟩ : BufTy).Contents (Elt Ideal)) :
    val_main_v29 (F := Ideal) x0 x1 x2 x3 x4 x5 x6 x7 = Cert.Spec.result0 x0 x1 x2 x3 x4 x5 x6 x7 := by
  funext j
  obtain ⟨a, b, o, rfl⟩ : ∃ a b o, j = ix3 a b o := ⟨j 0, j 1, j 2, eq_ix3 j⟩
  rw [val_main_v29_apply, idx_v29, prob_apply]
  rfl

/-- The reference's second result is the specification's hidden state. -/
theorem result1_eq (x0 : (⟨S256x4096, .f32⟩ : BufTy).Contents (Elt Ideal)) (x1 : (⟨S1x256x4096, .f32⟩ : BufTy).Contents (Elt Ideal)) (x2 : (⟨S4096x4096, .f32⟩ : BufTy).Contents (Elt Ideal)) (x3 : (⟨S4096, .f32⟩ : BufTy).Contents (Elt Ideal)) (x4 : (⟨S4096x4096, .f32⟩ : BufTy).Contents (Elt Ideal)) (x5 : (⟨S4096, .f32⟩ : BufTy).Contents (Elt Ideal)) :
    val_main_v30 (F := Ideal) x0 x1 x2 x3 x4 x5 = Cert.Spec.result1 x0 x1 x2 x3 x4 x5 := by
  funext j
  obtain ⟨a, b, n, rfl⟩ : ∃ a b n, j = ix3 a b n := ⟨j 0, j 1, j 2, eq_ix3 j⟩
  rw [val_main_v30_apply, idx_v30, hidden_apply]
  rfl

/-! ## The run -/

/-- On every device, from any memory with zero counters, every weakly fair execution of the reference terminates with
    its two results the specification's arrays of the arguments' launch contents, and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v29) = Cert.Spec.result0 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_v30) = Cert.Spec.result1 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)) :=
  (θ_run (Cert.ReferenceIdeal.defs (F := Ideal)) _ _).mono
    (fun _ h c => ⟨(h c).1.trans ((val_main_v29_eq m c).trans (result0_eq _ _ _ _ _ _ _ _)),
      (h c).2.1.trans ((val_main_v30_eq _ _ _ _ _ _).trans (result1_eq _ _ _ _ _ _)), (h c).2.2⟩)
    (Cert.ReferenceIdeal.Value.run (F := Ideal) m ρ)

end Cert.RefSide

end
-- ==== Proof.lean ====
/-
  The certificate's five claims, assembled. Both kernel programs — the printed one at the word level and its idealization —
  run to the end, fault nowhere and leave their eight arguments as launched (the frames, from each program's run through its
  two kernel regions). The reference's frame is its run with the results dropped. The idealization rewrote nothing, so
  `preserves` has nothing to state. And at the ideal instance both programs end with the same two arrays: the specification's
  probabilities and hidden state (one step of an Elman cell, a linear layer, a row softmax) of the arguments, on which the two
  starting memories agree.
-/
import proofs.«111199_j25512105738297_2_alg».proof.Defs
import proofs.«111199_j25512105738297_2_alg».proof.Proof.Gen.Kernel
import proofs.«111199_j25512105738297_2_alg».proof.Proof.Gen.KernelIdeal
import proofs.«111199_j25512105738297_2_alg».proof.Proof.Gen.ReferenceIdeal
import proofs.«111199_j25512105738297_2_alg».proof.Proof.Gen.Pre_finite_inputs
import proofs.«111199_j25512105738297_2_alg».proof.Proof.BArgs
import proofs.«111199_j25512105738297_2_alg».proof.Proof.IArgs
import proofs.«111199_j25512105738297_2_alg».proof.Proof.IValue
import proofs.«111199_j25512105738297_2_alg».proof.Proof.RefSide
import Idealize.ShloMosaic.Adequacy
import Idealize.ShloMosaic.Init

noncomputable section

namespace Cert.Proof

open Idealize.ShloMosaic Idealize.SL.Sem

theorem frame_p : Cert.frame_Kernel := fun m ρ _ => Cert.Kernel.Hand.frame (F := Bits) m ρ

theorem frame_pi : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both idealized programs end at the specification's two arrays of the arguments; the memories agree on the arguments. -/
theorem algebraic : Cert.algebraic_KernelIdeal_ReferenceIdeal := by
  intro m ρ m' ρ' _ hagree
  refine ⟨fun c => Cert.Spec.result0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Spec.result1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Hand.run_value m ρ, ?_⟩
  refine (θ_run Cert.ReferenceIdeal.defs _ _).mono (fun _ h c => ?_) (Cert.RefSide.run m' ρ')
  obtain ⟨h0, h1, h2, h3, h4, h5, h6, h7⟩ := hagree c
  refine ⟨(h c).1.trans ?_, (h c).2.1.trans ?_, (h c).2.2⟩
  · rw [h0, h1, h2, h3, h4, h5, h6, h7]
  · rw [h0, h1, h2, h3, h4, h5]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
